-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S4000 : Shape := ⟨1, ![4000]⟩
abbrev S1700000x128 : Shape := ⟨2, ![1700000, 128]⟩

abbrev nBuf : Space → Nat
  | .hbm => 48
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .bf16⟩
  | .hbm, ⟨32, _⟩ => ⟨S100000x128, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .bf16⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S4000x128, .f32⟩
  | .local _ .vmem, ⟨22, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .bf16 = 32 ∨ (Rect.block (s := S100000x128) S4000x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000, .i32⟩
  | .hbm, ⟨37, _⟩ => ⟨S1x1600000, .i32⟩
  | .hbm, ⟨38, _⟩ => ⟨S1600000, .i32⟩
  | .hbm, ⟨39, _⟩ => ⟨S1700000, .i32⟩
  | .hbm, ⟨40, _⟩ => ⟨S1x1600000, .i32⟩
  | .hbm, ⟨41, _⟩ => ⟨S1600000, .i32⟩
  | .hbm, ⟨42, _⟩ => ⟨S1700000, .i32⟩
  | .hbm, ⟨43, _⟩ => ⟨S_, .f32⟩
  | .hbm, ⟨44, _⟩ => ⟨S1700000, .f32⟩
  | .hbm, ⟨45, _⟩ => ⟨S_, .f32⟩
  | .hbm, ⟨46, _⟩ => ⟨S100000, .f32⟩
  | .hbm, ⟨47, _⟩ => ⟨S1700000x1, .i32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000, .f32⟩
  | .hbm, ⟨68, _⟩ => ⟨S1700000, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .i1⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  The program is four stretches in order: host operations, the first grid of blocks, host operations, the second grid of
  blocks. Its run is known stretch by stretch; here the last stretch's contents are read at the result array as well as
  at the argument arrays: every weakly fair execution terminates, nothing faults, the argument arrays end as launched and
  the result array ends at what the second grid's write-backs leave in it.
-/
import proofs.«119485_j35983236006067_2_alg».proof.Proof.Gen.KernelIdeal.Frame

set_option maxRecDepth 16384

noncomputable section

namespace GcnKernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    last stretch leaves in it and the ten argument arrays end as launched. -/
theorem run_value : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end GcnKernelRun

end
-- ==== Proof.Spec.lean ====
/-
  One layer of a graph convolution with a residual branch, written as functions of its inputs on the extended reals, and
  the law that joins two arrangements of it.

  Each node's feature row is scaled to unit length (under a small guard in the quotient) and batch-normalised with
  running statistics (`feat`); a dense map of the row (`dense`) gives the message of the node and, with other weights,
  its residual. Every node i receives the messages of the edges into it — each graph edge and one self-loop per node —
  weighted by d(source) · d(i), d the inverse square root of a node's in-degree; bias, residual and residual bias are
  added and a leaky rectifier is applied.

  One arrangement scales each node's message by d(source) once, sums over the edges into i, and multiplies the sum by
  d(i); the other multiplies every edge's message by d(source) · d(i) and then sums. They agree because d(i) is a
  nonnegative REAL number: every node has its self-loop, so its in-degree is a real number at least one, and a
  nonnegative real factor distributes over any sum of extended reals, infinite terms included. The remaining
  difference is the order in which bias, residual and residual bias are added, and addition of extended reals is
  commutative and associative.
-/
import Idealize.ShloMosaic.Lib.ValueIdx
import Idealize.ShloMosaic.Lib.IdealHost
import Idealize.ShloMosaic.PureOps.Ideal.Laws

noncomputable section

namespace GcnSpec

open Idealize.ShloMosaic Idealize.ShloMosaic.ValueIdx

/-- Feature k of a node's row after scaling the row to unit length and batch normalisation with running statistics. -/
def feat (row mean var gamma beta : Fin 128 → EReal) (k : Fin 128) : EReal :=
  (Ideal.div (row k) (max (Ideal.sqrt (∑ j : Fin 128, row j * row j)) (Ideal.ofBits .f32 0x2B8CBCCC#32)) - mean k)
    * Ideal.rsqrt (var k + Ideal.ofBits .f32 0x3727C5AC#32) * gamma k + beta k

/-- Column f of a row times a 128 × 128 matrix. -/
def dense (row : Fin 128 → EReal) (w : (⟨2, ![128, 128]⟩ : Shape).Idx → EReal) (f : Fin 128) : EReal :=
  ∑ k : Fin 128, row k * w (ix2 k f)

/-- The leaky rectifier: s where s ≥ 0, a small multiple of s elsewhere. -/
def leaky (s : EReal) : EReal :=
  Scalar.select (Ideal.cmp .oge s (Ideal.ofBits .f32 0x00000000#32)) s (Ideal.ofBits .f32 0x3C23D70A#32 * s)

variable {E N : Nat}

/-- The number of edges into node i, counted in ones. -/
def degree (dst : Fin E → ℤ) (i : ℕ) : EReal :=
  ∑ e : Fin E, if dst e = (i : ℤ) then Ideal.ofBits .f32 0x3F800000#32 else 0

/-- Messages scaled at the source, summed over the edges into i, the sum scaled at i. -/
def aggScaledOnce (dst : Fin E → ℤ) (src : Fin E → Fin N) (msg dinv : Fin N → EReal) (i : Fin N) : EReal :=
  (∑ e : Fin E, if dst e = (i.val : ℤ) then msg (src e) * dinv (src e) else 0) * dinv i

/-- Every edge's message scaled by the product of the two ends' factors, then summed. -/
def aggPerEdge (dst : Fin E → ℤ) (src dstRow : Fin E → Fin N) (msg dinv : Fin N → EReal) (i : Fin N) : EReal :=
  ∑ e : Fin E, if dst e = (i.val : ℤ) then msg (src e) * (dinv (src e) * dinv (dstRow e)) else 0

/-- A nonnegative real factor distributes over a finite sum of extended reals. -/
theorem sum_mul_real {ι : Type*} (s : Finset ι) (g : ι → EReal) (c : ℝ) (hc : 0 ≤ c) :
    (∑ e ∈ s, g e) * (c : EReal) = ∑ e ∈ s, g e * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- THE LAW: scaling once at the source and once after the sum is scaling every edge by both factors, when the
    factor at i is a nonnegative real and the edges into i name i as their destination row. -/
theorem aggScaledOnce_eq_aggPerEdge (dst : Fin E → ℤ) (src dstRow : Fin E → Fin N) (msg dinv : Fin N → EReal) (i : Fin N)
    (hd : ∃ r : ℝ, 0 ≤ r ∧ dinv i = (r : EReal)) (hrow : ∀ e, dst e = (i.val : ℤ) → dstRow e = i) :
    aggScaledOnce dst src msg dinv i = aggPerEdge dst src dstRow msg dinv i := by
  obtain ⟨r, hr, hdi⟩ := hd
  unfold aggScaledOnce aggPerEdge
  rw [hdi, sum_mul_real _ _ r hr]
  refine Finset.sum_congr rfl fun e _ => ?_
  by_cases h : dst e = (i.val : ℤ)
  · rw [if_pos h, if_pos h, hrow e h, hdi, mul_assoc]
  · rw [if_neg h, if_neg h, zero_mul]

/-- Bias, residual and residual bias may be added in either grouping. -/
theorem add_arrangements (agg res b rsb : EReal) : agg + (res + (rsb + b)) = ((agg + b) + res) + rsb := by
  rw [add_assoc, add_assoc, add_comm rsb b, add_left_comm b res rsb]

/-- A finite sum of zeros and ones is a nonnegative real, and at least one when some term is one. -/
theorem degree_real (dst : Fin E → ℤ) (i : ℕ) (h : ∃ e, dst e = (i : ℤ)) :
    ∃ r : ℝ, 1 ≤ r ∧ degree dst i = (r : EReal) := by
  classical
  refine ⟨∑ e : Fin E, if dst e = (i : ℤ) then (1 : ℝ) else 0, ?_, ?_⟩
  · obtain ⟨e0, he0⟩ := h
    calc (1 : ℝ) = if dst e0 = (i : ℤ) then (1 : ℝ) else 0 := by rw [if_pos he0]
      _ ≤ _ := Finset.single_le_sum (f := fun e => if dst e = (i : ℤ) then (1 : ℝ) else 0)
          (fun e _ => by split <;> norm_num) (Finset.mem_univ e0)
  · unfold degree
    rw [Ideal.ofBits_one_f32]
    have : ∀ s : Finset (Fin E), (∑ e ∈ s, if dst e = (i : ℤ) then (1 : EReal) else 0)
        = ((∑ e ∈ s, if dst e = (i : ℤ) then (1 : ℝ) else 0 : ℝ) : EReal) := by
      intro s
      induction s using Finset.induction_on with
      | empty => simp
      | insert a s ha ih =>
        rw [Finset.sum_insert ha, Finset.sum_insert ha, ih, EReal.coe_add]
        congr 1
        split <;> simp
    exact this Finset.univ

/-- The inverse square root of a node's in-degree is a nonnegative real when the node has an edge into it. -/
theorem dinv_real (dst : Fin E → ℤ) (i : ℕ) (h : ∃ e, dst e = (i : ℤ)) :
    ∃ r : ℝ, 0 ≤ r ∧ Ideal.rsqrt (degree dst i) = (r : EReal) := by
  obtain ⟨d, hd, he⟩ := degree_real dst i h
  refine ⟨(Real.sqrt d)⁻¹, inv_nonneg.mpr (Real.sqrt_nonneg d), ?_⟩
  rw [he, Ideal.rsqrt_coe, if_neg (by linarith), if_neg (by linarith)]

end GcnSpec

end
-- ==== Proof.Edges.lean ====
/-
  The graph's edge lists and the layer's value, read off the input arrays.

  The edge array holds a row of sources and a row of destinations; one self-loop per node is appended to each, so the
  lists have 1,600,000 + 100,000 entries. An entry's destination is used twice: read signed, it names the node whose sum
  the edge's message joins (an entry that names no node joins none); wrapped (a negative entry counted from the end) and
  clamped into the node range, it names the row whose degree factor the edge carries. The source entry, wrapped and
  clamped the same way, names the row whose message and degree factor the edge carries. A node's degree factor is the
  inverse square root of the number of list entries whose destination it is.

  `kerOut` and `refOut` are the two arrangements of the layer's value at node i and output feature f, as functions of
  the ten input arrays.
-/
import proofs.«119485_j35983236006067_2_alg».proof.Proof.Gen.ReferenceIdeal.Read
import proofs.«119485_j35983236006067_2_alg».proof.Proof.Spec

noncomputable section

namespace GcnEdges

open Idealize.ShloMosaic Idealize.ShloMosaic.ValueIdx Cert.ReferenceIdeal Cert.ReferenceIdeal.Read

/-- The edge array, the node features, a weight matrix, a per-feature vector. -/
abbrev EdgeArr := (⟨S2x1600000, .i32⟩ : BufTy).Contents (Elt Ideal)
abbrev NodeArr := (⟨S100000x128, .f32⟩ : BufTy).Contents (Elt Ideal)
abbrev WeightArr := (⟨S128x128, .f32⟩ : BufTy).Contents (Elt Ideal)
abbrev FeatVec := (⟨S128, .f32⟩ : BufTy).Contents (Elt Ideal)

/-- The row a column of indices names at entry e: read signed, clamped into the node range. -/
def rowOf (col : IVec (⟨2, ![1700000, 1]⟩ : Shape) 32) (e : Fin 1700000) : Fin 100000 :=
  ⟨min (col (ix2 e (0 : Fin 1))).toInt.toNat (100000 - 1), by omega⟩

/-- The destination of list entry e, read signed: the node whose sum the entry's message joins. -/
def dstZ (x1 : EdgeArr) (e : Fin 1700000) : ℤ := (val_main_v32 (F := Ideal) x1 (ix2 e (0 : Fin 1))).toInt

/-- The row whose message and degree factor list entry e carries. -/
def srcRow (x1 : EdgeArr) (e : Fin 1700000) : Fin 100000 := rowOf (val_main_v40 (F := Ideal) x1) e

/-- The row whose degree factor list entry e carries at its destination end. -/
def dstRow (x1 : EdgeArr) (e : Fin 1700000) : Fin 100000 := rowOf (val_main_v47 (F := Ideal) x1) e

/-- Node n's degree factor. -/
def dinvAt (x1 : EdgeArr) (n : Fin 100000) : EReal := val_main_v34 (F := Ideal) x1 (ix1 n)

/-- Column f of node n's normalised feature row times the weight matrix w. -/
def msgOf (x0 : NodeArr) (w : WeightArr) (gamma beta mean var : FeatVec) (f : Fin 128) (n : Fin 100000) : EReal :=
  GcnSpec.dense (GcnSpec.feat (fun j => x0 (ix2 n j)) (fun j => mean (ix1 j)) (fun j => var (ix1 j))
    (fun j => gamma (ix1 j)) (fun j => beta (ix1 j))) w f

/-- The layer's value at (i, f), messages scaled at the source and the sum scaled at i; bias and residual bias added first. -/
def kerOut (x0 : NodeArr) (x1 : EdgeArr) (x2 : WeightArr) (x3 x4 x5 x6 x7 : FeatVec) (x8 : WeightArr) (x9 : FeatVec)
    (i : Fin 100000) (f : Fin 128) : EReal :=
  GcnSpec.leaky (GcnSpec.aggScaledOnce (dstZ x1) (srcRow x1) (msgOf x0 x2 x4 x5 x6 x7 f) (dinvAt x1) i
    + (msgOf x0 x8 x4 x5 x6 x7 f i + (x9 (ix1 f) + x3 (ix1 f))))

/-- The layer's value at (i, f), every edge scaled by both ends' factors; bias, residual, residual bias added in turn. -/
def refOut (x0 : NodeArr) (x1 : EdgeArr) (x2 : WeightArr) (x3 x4 x5 x6 x7 : FeatVec) (x8 : WeightArr) (x9 : FeatVec)
    (i : Fin 100000) (f : Fin 128) : EReal :=
  GcnSpec.leaky (((GcnSpec.aggPerEdge (dstZ x1) (srcRow x1) (dstRow x1) (msgOf x0 x2 x4 x5 x6 x7 f) (dinvAt x1) i
    + x3 (ix1 f)) + msgOf x0 x8 x4 x5 x6 x7 f i) + x9 (ix1 f))

end GcnEdges

end
-- ==== Proof.LibSparseRows.lean ====
/-
  Row gathers, row scatter-adds and sparse products on the host, read at an index.

  A sparse matrix given by its edges — for each of E edges a row number, a column number and a value — acts on an N×F
  matrix h by  out[n, f] = Σ over the edges e into row n of  val[e] · h[col[e], f].  On the host this is a GATHER of the rows
  `h[col]` (E×F), a product with the values laid along the columns, and a SCATTER-ADD of the E×F products into N×F zeros
  by the row numbers (a segment sum). Read at an index:
  • the row gather at (e, f) is the operand at (r, f), r the index col[e] read signed and clamped into [0, N − 1];
  • the row scatter-add at (n, f) is the operand's entry plus the sum, over the update rows whose index — read signed, not
    clamped — is n, of the update's entry (e, f); an update row whose index is no row of the operand adds nothing;
  • so the product at (n, f) is that sum of val · h over the edges into n, and it reads column f of h only: the product of
    several matrices laid side by side is the products of each laid side by side (`spmm_cols`).
  Every statement is at the ideal values (floats are extended reals); none needs a finiteness hypothesis.
-/
import Idealize.ShloMosaic.Lib.ValueIdx
import Idealize.ShloMosaic.PureOps.Ideal.Laws

noncomputable section

namespace GatherRows

open Idealize.ShloMosaic Idealize.ShloMosaic.ValueIdx

variable {α : Type} {N E F w : Nat}

/-- The dimension numbers of a row gather from an N×F operand by E×1 start indices. -/
abbrev rowDims (N E F : Nat)
    (wf : GatherDims.WF (⟨2, ![N, F]⟩ : Shape) ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF (⟨2, ![N, F]⟩ : Shape) ⟨2, ![E, 1]⟩ ⟨2, ![E, F]⟩ [1] [0] [] [0] [] 1 ![1, F])

/-- THE ROW GATHER READ AT (e, f): the operand at the row idx[e] names — read signed, clamped into the operand — and
    column f. -/
theorem gather_rows_apply (hN : 0 < N) (x : (⟨2, ![N, F]⟩ : Shape).Idx → α) (idx : IVec ⟨2, ![E, 1]⟩ w) (e : Fin E) (f : Fin F) :
    Host.gather (rowDims N E F wf) x idx (ix2 e f)
      = x (ix2 (⟨min (idx (ix2 e (0 : Fin 1))).toInt.toNat (N - 1), by omega⟩ : Fin N) f) := by
  unfold Host.gather
  congr 1
  funext a
  refine Fin.ext ?_
  have hb : ∀ a : Fin 2, (rowDims N E F wf).batchCoord (ix2 e f) a = 0 := fun a =>
    GatherDims.batchCoord_eq_zero _ _ _ List.not_mem_nil
  match a with
  | ⟨0, _⟩ =>
    show (rowDims N E F wf).start (ix2 e f) idx 0 + (rowDims N E F wf).batchCoord (ix2 e f) 0 + (rowDims N E F wf).offCoord (ix2 e f) 0 = _
    have h0 : (0 : Fin 2) ∉ (rowDims N E F wf).sKept :=
      (show (0 : Fin 2) ∉ (List.finRange 2).filter (· ∉ [(0 : Fin 2)] ++ []) by decide)
    rw [hb 0, GatherDims.offCoord_eq_zero _ _ _ h0]
    simp only [Nat.add_zero]
    unfold GatherDims.start
    rw [dif_pos (show (0 : Fin 2) ∈ [(0 : Fin 2)] from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1 + (rowDims N E F wf).offCoord (ix2 e f) 1 = f.val
    have h1 : (1 : Fin 2) ∈ (rowDims N E F wf).sKept :=
      (show (1 : Fin 2) ∈ (List.finRange 2).filter (· ∉ [(0 : Fin 2)] ++ []) by decide)
    rw [hb 1]
    unfold GatherDims.start GatherDims.offCoord
    rw [dif_neg (show (1 : Fin 2) ∉ [(0 : Fin 2)] by decide), dif_pos h1]
    simp only [Nat.zero_add, Nat.add_zero]
    rfl

end GatherRows

namespace ScatterRows

open Idealize.ShloMosaic Idealize.ShloMosaic.ValueIdx

variable {N E F w : Nat}

/-- The dimension numbers of a row scatter into an N×F operand from E×1 indices and E×F updates. -/
abbrev rowDims (N E F : Nat) (wf : ScatterDims.WF (⟨2, ![N, F]⟩ : Shape) ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF (⟨2, ![N, F]⟩ : Shape) ⟨2, ![E, 1]⟩ ⟨2, ![E, F]⟩ [1] [0] [0] 1)

/-- On the row axis an update has no window coordinate. -/
theorem window_row (j : (⟨2, ![E, F]⟩ : Shape).Idx) : (rowDims N E F wf).window j 0 = 0 := by
  have h : (0 : Fin 2) ∉ (rowDims N E F wf).sKept :=
    (show (0 : Fin 2) ∉ (List.finRange 2).filter (· ∉ [(0 : Fin 2)]) by decide)
  unfold ScatterDims.window
  rw [dif_neg h]

/-- On the column axis its window coordinate is its own column. -/
theorem window_col (j : (⟨2, ![E, F]⟩ : Shape).Idx) : (rowDims N E F wf).window j 1 = (j 1).val := by
  have h : (1 : Fin 2) ∈ (rowDims N E F wf).sKept :=
    (show (1 : Fin 2) ∈ (List.finRange 2).filter (· ∉ [(0 : Fin 2)]) by decide)
  unfold ScatterDims.window
  rw [dif_pos h]
  rfl

/-- The window starts at column 0. -/
theorem start_col (j : (⟨2, ![E, F]⟩ : Shape).Idx) (idx : IVec ⟨2, ![E, 1]⟩ w) : (rowDims N E F wf).start j idx 1 = 0 := by
  unfold ScatterDims.start
  rw [dif_neg (show (1 : Fin 2) ∉ [(0 : Fin 2)] by decide)]

/-- The window starts at the row the update row's index names, read signed. -/
theorem start_row (j : (⟨2, ![E, F]⟩ : Shape).Idx) (idx : IVec ⟨2, ![E, 1]⟩ w) :
    (rowDims N E F wf).start j idx 0 = (idx (ix2 (j 0 : Fin E) (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- Update entry `j` lands on the operand's entry (n, f) exactly when its row's index, read signed, is n and its column is f. -/
theorem resultIdx_eq_some_iff (j : (⟨2, ![E, F]⟩ : Shape).Idx) (idx : IVec ⟨2, ![E, 1]⟩ w) (n : Fin N) (f : Fin F) :
    (rowDims N E F wf).resultIdx? j idx = some (ix2 n f)
      ↔ (idx (ix2 (j 0 : Fin E) (0 : Fin 1))).toInt = (n.val : ℤ) ∧ (j 1 : Fin F) = f := by
  unfold ScatterDims.resultIdx?
  constructor
  · intro h
    split at h
    · rename_i hr
      have he := Option.some.inj h
      have e0 := congrArg (fun g => (g 0).val) he
      have e1 := congrArg (fun g => (g 1).val) he
      simp only [start_row, start_col, window_row, window_col] at e0 e1
      have h0 := hr 0
      simp only [start_row, window_row] at h0
      refine ⟨?_, Fin.ext ?_⟩
      · have : ((idx (ix2 (j 0 : Fin E) (0 : Fin 1))).toInt + 0).toNat = n.val := e0
        omega
      · have : ((0 : ℤ) + ((j 1).val : ℤ)).toNat = f.val := e1
        omega
    · exact absurd h (by simp)
  · rintro ⟨h0, h1⟩
    have hn := n.isLt
    have hj : (j 1).val < F := (j 1).isLt
    have s0 : (rowDims N E F wf).start j idx 0 + ((rowDims N E F wf).window j 0 : ℤ) = (n.val : ℤ) := by
      rw [start_row, window_row, h0]; omega
    have s1 : (rowDims N E F wf).start j idx 1 + ((rowDims N E F wf).window j 1 : ℤ) = ((j 1).val : ℤ) := by
      rw [start_col, window_col]; omega
    have hr : ∀ a, 0 ≤ (rowDims N E F wf).start j idx a + (rowDims N E F wf).window j a
        ∧ (rowDims N E F wf).start j idx a + (rowDims N E F wf).window j a < (⟨2, ![N, F]⟩ : Shape).size a := fun a =>
      match a with
      | ⟨0, _⟩ => (show 0 ≤ (rowDims N E F wf).start j idx 0 + ((rowDims N E F wf).window j 0 : ℤ)
          ∧ (rowDims N E F wf).start j idx 0 + ((rowDims N E F wf).window j 0 : ℤ) < ((N : ℕ) : ℤ) by rw [s0]; omega)
      | ⟨1, _⟩ => (show 0 ≤ (rowDims N E F wf).start j idx 1 + ((rowDims N E F wf).window j 1 : ℤ)
          ∧ (rowDims N E F wf).start j idx 1 + ((rowDims N E F wf).window j 1 : ℤ) < ((F : ℕ) : ℤ) by rw [s1]; omega)
    rw [dif_pos hr]
    congr 1
    funext a
    refine Fin.ext ?_
    match a with
    | ⟨0, _⟩ =>
      show ((rowDims N E F wf).start j idx 0 + ((rowDims N E F wf).window j 0 : ℤ)).toNat = n.val
      rw [s0]; omega
    | ⟨1, _⟩ =>
      show ((rowDims N E F wf).start j idx 1 + ((rowDims N E F wf).window j 1 : ℤ)).toNat = f.val
      rw [s1, ← h1]; omega

/-- THE ROW SCATTER-ADD READ AT (n, f): the operand's entry plus the sum, over the update rows whose index is n, of the
    update's entry in column f. -/
theorem hostScatterAdd_rows_apply (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowDims N E F wf) x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  have hiff : ∀ b : Fin F, (rowDims N E F wf).resultIdx? (ix2 e b) idx = some (ix2 n f)
      ↔ ((idx (ix2 e (0 : Fin 1))).toInt = (n.val : ℤ) ∧ b = f) :=
    fun b => resultIdx_eq_some_iff wf (ix2 e b) idx n f
  by_cases hc : (idx (ix2 e (0 : Fin 1))).toInt = (n.val : ℤ)
  · rw [if_pos hc]
    rw [Finset.sum_eq_single f]
    · rw [if_pos ((hiff f).mpr ⟨hc, rfl⟩)]
    · intro b _ hb
      rw [if_neg fun h => hb ((hiff b).mp h).2]
    · intro h; exact absurd (Finset.mem_univ f) h
  · rw [if_neg hc]
    refine Finset.sum_eq_zero fun b _ => ?_
    rw [if_neg fun h => hc ((hiff b).mp h).1]

/-- The same of the host operation at the ideal instance, as a printed program spells it. -/
theorem scatterAdd_rows_apply {φ : FTy} (x : FVec Ideal ⟨2, ![N, F]⟩ φ) (idx : IVec ⟨2, ![E, 1]⟩ w)
    (upd : FVec Ideal ⟨2, ![E, F]⟩ φ) (n : Fin N) (f : Fin F) :
    Host.scatterAdd (rowDims N E F wf) x idx upd (ix2 n f)
      = x (ix2 n f) + ∑ e : Fin E, if (idx (ix2 e (0 : Fin 1))).toInt = (n.val : ℤ) then upd (ix2 e f) else 0 :=
  hostScatterAdd_rows_apply wf x idx upd n f

/-- COLUMNS DO NOT MIX: two row scatters by the same indices, of any two widths, agree at a pair of columns on which
    their operands agree and their updates agree. So a scatter of matrices laid side by side is, column block by column
    block, the scatter of each. -/
theorem hostScatterAdd_rows_col {F' : Nat}
    (wf' : ScatterDims.WF (⟨2, ![N, F']⟩ : Shape) ⟨2, ![E, 1]⟩ ⟨2, ![E, F']⟩ [1] [0] [0] 1)
    (x : (⟨2, ![N, F]⟩ : Shape).Idx → EReal) (x' : (⟨2, ![N, F']⟩ : Shape).Idx → EReal) (idx : IVec ⟨2, ![E, 1]⟩ w)
    (upd : (⟨2, ![E, F]⟩ : Shape).Idx → EReal) (upd' : (⟨2, ![E, F']⟩ : Shape).Idx → EReal) (f : Fin F) (f' : Fin F')
    (hx : ∀ n : Fin N, x (ix2 n f) = x' (ix2 n f')) (hu : ∀ e : Fin E, upd (ix2 e f) = upd' (ix2 e f')) (n : Fin N) :
    Ideal.hostScatterAdd (rowDims N E F wf) x idx upd (ix2 n f)
      = Ideal.hostScatterAdd (rowDims N E F' wf') x' idx upd' (ix2 n f') := by
  rw [hostScatterAdd_rows_apply wf, hostScatterAdd_rows_apply wf', hx n]
  congr 1
  exact Finset.sum_congr rfl fun e _ => by rw [hu e]

end ScatterRows

namespace SparseRows

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- The clamped row an edge's column index names. -/
abbrev clampRow (hN : 0 < N) (ci : IVec ⟨2, ![E, 1]⟩ w) (e : Fin E) : Fin N :=
  ⟨min (ci (ix2 e (0 : Fin 1))).toInt.toNat (N - 1), by omega⟩

/-- THE SPARSE PRODUCT READ AT (n, f): scatter-adding, by the row indices `ri`, the products of the values `v` (laid out
    E×F) with the rows of `h` gathered by the column indices `ci`, onto `z`: the entry of `z` plus the sum over the edges
    into row n of value times `h` at the edge's column row, in column f. -/
theorem spmm_apply (hN : 0 < N) (z : (⟨2, ![N, F]⟩ : Shape).Idx → EReal) (ri ci : IVec ⟨2, ![E, 1]⟩ w)
    (v : (⟨2, ![E, F]⟩ : Shape).Idx → EReal) (h : (⟨2, ![N, F]⟩ : Shape).Idx → EReal) (n : Fin N) (f : Fin F) :
    Ideal.hostScatterAdd (ScatterRows.rowDims N E F wfs) z ri
        (fun j => v j * Host.gather (GatherRows.rowDims N E F wfg) h ci j) (ix2 n f)
      = z (ix2 n f) + ∑ e : Fin E, if (ri (ix2 e (0 : Fin 1))).toInt = (n.val : ℤ)
          then v (ix2 e f) * h (ix2 (clampRow hN ci e) f) else 0 := by
  rw [ScatterRows.hostScatterAdd_rows_apply wfs]
  congr 1
  refine Finset.sum_congr rfl fun e _ => ?_
  rw [GatherRows.gather_rows_apply wfg hN]

/-- SIDE BY SIDE: two sparse products by the same edges, of widths F and F', agree at a pair of columns on which the
    matrices, the laid-out values and the scatter's operands agree. A product over matrices laid side by side is therefore,
    column block by column block, the product over each. -/
theorem spmm_cols {F' : Nat}
    (wfg' : GatherDims.WF (⟨2, ![N, F']⟩ : Shape) ⟨2, ![E, 1]⟩ ⟨2, ![E, F']⟩ [1] [0] [] [0] [] 1 ![1, F'])
    (wfs' : ScatterDims.WF (⟨2, ![N, F']⟩ : Shape) ⟨2, ![E, 1]⟩ ⟨2, ![E, F']⟩ [1] [0] [0] 1)
    (hN : 0 < N) (ri ci : IVec ⟨2, ![E, 1]⟩ w)
    (z : (⟨2, ![N, F]⟩ : Shape).Idx → EReal) (z' : (⟨2, ![N, F']⟩ : Shape).Idx → EReal)
    (v : (⟨2, ![E, F]⟩ : Shape).Idx → EReal) (v' : (⟨2, ![E, F']⟩ : Shape).Idx → EReal)
    (h : (⟨2, ![N, F]⟩ : Shape).Idx → EReal) (h' : (⟨2, ![N, F']⟩ : Shape).Idx → EReal) (f : Fin F) (f' : Fin F')
    (hz : ∀ n : Fin N, z (ix2 n f) = z' (ix2 n f')) (hv : ∀ e : Fin E, v (ix2 e f) = v' (ix2 e f'))
    (hh : ∀ n : Fin N, h (ix2 n f) = h' (ix2 n f')) (n : Fin N) :
    Ideal.hostScatterAdd (ScatterRows.rowDims N E F wfs) z ri
        (fun j => v j * Host.gather (GatherRows.rowDims N E F wfg) h ci j) (ix2 n f)
      = Ideal.hostScatterAdd (ScatterRows.rowDims N E F' wfs') z' ri
        (fun j => v' j * Host.gather (GatherRows.rowDims N E F' wfg') h' ci j) (ix2 n f') := by
  rw [spmm_apply wfg wfs hN, spmm_apply wfg' wfs' hN, hz n]
  congr 1
  exact Finset.sum_congr rfl fun e _ => by rw [hv e, hh]

end SparseRows

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.HostReads.lean ====
/-
  The kernel program's host operations, read back.

  Before the first grid the host reshapes the four batch-normalisation vectors to rows, adds the two bias vectors and
  reshapes the sum to a row, builds the source and destination lists (the edge array's two rows, each followed by the
  self-loops 0 … 99999), counts each node's in-degree by a scatter-add of ones and takes its inverse square root, kept
  as a column. These are the same operations, on the same arrays, as the reference's own: the lists and the degree
  factors are the reference's, term for term.

  Between the grids it gathers, for every list entry, the source row of the first grid's scaled messages and
  scatter-adds the gathered rows by destination: at (i, f) the sum, over the entries whose destination is i, of the
  scaled message of the entry's source row in column f.
-/
import proofs.«119485_j35983236006067_2_alg».proof.Proof.Gen.KernelIdeal.Frame
import proofs.«119485_j35983236006067_2_alg».proof.Proof.Edges
import proofs.«119485_j35983236006067_2_alg».proof.Proof.LibSparseRows
import proofs.«119485_j35983236006067_2_alg».proof.Proof.LibColumns
import Idealize.ShloMosaic.Lib.StableHlo.Run
import Idealize.ShloMosaic.Lib.Pipeline.Value
import Idealize.ShloMosaic.Lib.IdealHost

set_option maxRecDepth 16384

noncomputable section

namespace GcnHost

open Idealize.ShloMosaic Idealize.ShloMosaic.TcCoe Idealize.ShloMosaic.ValueIdx Idealize.ShloMosaic.StableHlo Idealize.SL.Sem
open Cert.KernelIdeal Cert.KernelIdeal.Gen

variable (Wv : Valuation τ sig (Elt Ideal))

/-! ## Before the first grid -/

theorem arg0_kept : StableHlo.after (hostOps0 (F := Ideal)) Wv (Proc.devRef .tc main_arg0) = Wv (Proc.devRef .tc main_arg0) := by
  after_results
theorem arg2_kept : StableHlo.after (hostOps0 (F := Ideal)) Wv (Proc.devRef .tc main_arg2) = Wv (Proc.devRef .tc main_arg2) := by
  after_results
theorem arg8_kept : StableHlo.after (hostOps0 (F := Ideal)) Wv (Proc.devRef .tc main_arg8) = Wv (Proc.devRef .tc main_arg8) := by
  after_results

/-- A vector reshaped to a one-row matrix reads, at (0, k), the vector at k. -/
theorem row_of_vector {α : Type} (x : (⟨1, ![128]⟩ : Shape).Idx → α) (h : (⟨1, ![128]⟩ : Shape).ShapeCasts ⟨2, ![1, 128]⟩)
    (u : Fin 1) (k : Fin 128) : shapeCast ⟨2, ![1, 128]⟩ x h (ix2 u k) = x (ix1 k) :=
  shapeCast_apply x h _ _ (by
    have hu : u.val = 0 := by omega
    rw [Shape.rowMajor_val_two, Shape.rowMajor_val_one]
    show k.val = u.val * 128 + k.val
    rw [hu]; omega)

/-- The mean row. -/
theorem mean_row (k : Fin 128) :
    (StableHlo.after (hostOps0 (F := Ideal)) Wv (Proc.devRef .tc main_v0) : S1x128.Idx → EReal) (ix2 (0 : Fin 1) k)
      = (Wv (Proc.devRef .tc main_arg6) : S128.Idx → EReal) (ix1 k) := by
  have e : (StableHlo.after (hostOps0 (F := Ideal)) Wv (Proc.devRef .tc main_v0) : S1x128.Idx → EReal)
      = shapeCast S1x128 (Wv (Proc.devRef .tc main_arg6) : S128.Idx → EReal) shapeCasts_S128_S1x128 := by
    after_results; rfl
  rw [e]; exact row_of_vector _ _ _ k
/-- The variance row. -/
theorem var_row (k : Fin 128) :
    (StableHlo.after (hostOps0 (F := Ideal)) Wv (Proc.devRef .tc main_v1) : S1x128.Idx → EReal) (ix2 (0 : Fin 1) k)
      = (Wv (Proc.devRef .tc main_arg7) : S128.Idx → EReal) (ix1 k) := by
  have e : (StableHlo.after (hostOps0 (F := Ideal)) Wv (Proc.devRef .tc main_v1) : S1x128.Idx → EReal)
      = shapeCast S1x128 (Wv (Proc.devRef .tc main_arg7) : S128.Idx → EReal) shapeCasts_S128_S1x128 := by
    after_results; rfl
  rw [e]; exact row_of_vector _ _ _ k
/-- The scale row. -/
theorem gamma_row (k : Fin 128) :
    (StableHlo.after (hostOps0 (F := Ideal)) Wv (Proc.devRef .tc main_v2) : S1x128.Idx → EReal) (ix2 (0 : Fin 1) k)
      = (Wv (Proc.devRef .tc main_arg4) : S128.Idx → EReal) (ix1 k) := by
  have e : (StableHlo.after (hostOps0 (F := Ideal)) Wv (Proc.devRef .tc main_v2) : S1x128.Idx → EReal)
      = shapeCast S1x128 (Wv (Proc.devRef .tc main_arg4) : S128.Idx → EReal) shapeCasts_S128_S1x128 := by
    after_results; rfl
  rw [e]; exact row_of_vector _ _ _ k
/-- The shift row. -/
theorem beta_row (k : Fin 128) :
    (StableHlo.after (hostOps0 (F := Ideal)) Wv (Proc.devRef .tc main_v3) : S1x128.Idx → EReal) (ix2 (0 : Fin 1) k)
      = (Wv (Proc.devRef .tc main_arg5) : S128.Idx → EReal) (ix1 k) := by
  have e : (StableHlo.after (hostOps0 (F := Ideal)) Wv (Proc.devRef .tc main_v3) : S1x128.Idx → EReal)
      = shapeCast S1x128 (Wv (Proc.devRef .tc main_arg5) : S128.Idx → EReal) shapeCasts_S128_S1x128 := by
    after_results; rfl
  rw [e]; exact row_of_vector _ _ _ k
/-- The bias row: residual bias plus bias. -/
theorem bias_row (x9 x3 : S128.Idx → EReal) (h9 : Wv (Proc.devRef .tc main_arg9) = x9) (h3 : Wv (Proc.devRef .tc main_arg3) = x3)
    (k : Fin 128) :
    (StableHlo.after (hostOps0 (F := Ideal)) Wv (Proc.devRef .tc main_v5) : S1x128.Idx → EReal) (ix2 (0 : Fin 1) k)
      = x9 (ix1 k) + x3 (ix1 k) := by
  have e : (StableHlo.after (hostOps0 (F := Ideal)) Wv (Proc.devRef .tc main_v5) : S1x128.Idx → EReal)
      = shapeCast S1x128 (addf (F := Ideal) (φ := .f32) x9 x3) shapeCasts_S128_S1x128 := by
    after_results; rw [h9, h3]; rfl
  rw [e, row_of_vector]; rfl

/-- The column of degree factors holds, at row n, the reference's degree factor of node n. -/
theorem dinv_column (n : Fin 100000) :
    (StableHlo.after (hostOps0 (F := Ideal)) Wv (Proc.devRef .tc main_v18) : S100000x1.Idx → EReal) (ix2 n (0 : Fin 1))
      = GcnEdges.dinvAt (Wv (Proc.devRef .tc main_arg1)) n := by
  have e : (StableHlo.after (hostOps0 (F := Ideal)) Wv (Proc.devRef .tc main_v18) : S100000x1.Idx → EReal)
      = shapeCast S100000x1 (Cert.ReferenceIdeal.Read.val_main_v34 (F := Ideal) (Wv (Proc.devRef .tc main_arg1))) shapeCasts_S100000_S100000x1 := by
    after_results; rfl
  rw [e, LibColumns.shapeCast_a_a1_apply]; rfl

/-- The destination list is the reference's. -/
theorem dst_list :
    (StableHlo.after (hostOps0 (F := Ideal)) Wv (Proc.devRef .tc main_v12) : S1700000.Idx → BitVec 32)
      = Cert.ReferenceIdeal.Read.val_main_v29 (F := Ideal) (Wv (Proc.devRef .tc main_arg1)) := by
  after_results; rfl
/-- The source list is the reference's. -/
theorem src_list :
    (StableHlo.after (hostOps0 (F := Ideal)) Wv (Proc.devRef .tc main_v9) : S1700000.Idx → BitVec 32)
      = Cert.ReferenceIdeal.Read.val_main_v26 (F := Ideal) (Wv (Proc.devRef .tc main_arg1)) := by
  after_results; rfl

/-! ## Between the grids -/

theorem dinv_kept : StableHlo.after (hostOps1 (F := Ideal)) Wv (Proc.devRef .tc main_v18) = Wv (Proc.devRef .tc main_v18) := by
  after_results
theorem resid_kept : StableHlo.after (hostOps1 (F := Ideal)) Wv (Proc.devRef .tc main_v19_1) = Wv (Proc.devRef .tc main_v19_1) := by
  after_results

/-- THE SUMMED MESSAGES at (i, f), when the two lists are the reference's: the sum, over the entries whose destination
    is i, of the scaled-message array at the entry's source row, column f. -/
theorem summed_messages (x1 : GcnEdges.EdgeArr) (xs : S100000x128.Idx → EReal)
    (hdst : (Wv (Proc.devRef .tc main_v12) : S1700000.Idx → BitVec 32) = Cert.ReferenceIdeal.Read.val_main_v29 (F := Ideal) x1)
    (hsrc : (Wv (Proc.devRef .tc main_v9) : S1700000.Idx → BitVec 32) = Cert.ReferenceIdeal.Read.val_main_v26 (F := Ideal) x1)
    (hxs : Wv (Proc.devRef .tc main_v19_0) = xs)
    (i : Fin 100000) (f : Fin 128) :
    (StableHlo.after (hostOps1 (F := Ideal)) Wv (Proc.devRef .tc main_v30) : S100000x128.Idx → EReal) (ix2 i f)
      = ∑ e : Fin 1700000, if GcnEdges.dstZ x1 e = (i.val : ℤ) then xs (ix2 (GcnEdges.srcRow x1 e) f) else 0 := by
  have e : (StableHlo.after (hostOps1 (F := Ideal)) Wv (Proc.devRef .tc main_v30) : S100000x128.Idx → EReal)
      = Host.scatterAdd (F := Ideal) (φ := .f32)
          (ScatterRows.rowDims 100000 1700000 128 scatter_S100000x128_S1700000x1_S1700000x128_1_0_0_1.wf)
          (broadcastInDim S100000x128 ![] bcast_S_S100000x128 (constant (F := Ideal) S_ .f32 0x00000000#32))
          (Cert.ReferenceIdeal.Read.val_main_v32 (F := Ideal) x1)
          (extf (F := Ideal) (φ := .bf16) .f32 (Host.gather
            (GatherRows.rowDims 100000 1700000 128 gather_S100000x128_S1700000x1_S1700000x128_1_0_n_n_0_1_1128.wf)
            xs (Cert.ReferenceIdeal.Read.val_main_v40 (F := Ideal) x1)) bitsLt_bf16_f32) := by
    after_results
    rw [hdst, hsrc, hxs]
    rfl
  rw [e]
  refine (ScatterRows.scatterAdd_rows_apply (N := 100000) (E := 1700000) (F := 128) _ _ _ _ i f).trans ?_
  rw [Idealize.ShloMosaic.ValueIdx.broadcastInDim_scalar_apply, constant_apply, Ideal.ofBits_zero_f32, zero_add]
  refine Finset.sum_congr rfl fun e _ => ?_
  have hg : extf (F := Ideal) (φ := .bf16) .f32 (Host.gather
      (GatherRows.rowDims 100000 1700000 128 gather_S100000x128_S1700000x1_S1700000x128_1_0_n_n_0_1_1128.wf)
      xs (Cert.ReferenceIdeal.Read.val_main_v40 (F := Ideal) x1)) bitsLt_bf16_f32 (ix2 e f)
      = xs (ix2 (GcnEdges.srcRow x1 e) f) :=
    GatherRows.gather_rows_apply (N := 100000) (E := 1700000) (F := 128) _ (by norm_num) xs
      (Cert.ReferenceIdeal.Read.val_main_v40 (F := Ideal) x1) e f
  exact if_congr Iff.rfl hg rfl

end GcnHost

end
-- ==== Proof.Region1.lean ====
/-
  The second grid of blocks: the combine step, as one whole-array function.

  Block t covers rows 4000·t … 4000·t + 3999. At a row n and feature f the step multiplies the summed messages by the
  row's degree factor, adds the residual, and applies the leaky rectifier. Each of the 25 blocks writes back exactly its
  own rows and the blocks tile the array, so after the grid the result array holds that function of the three arrays the
  grid read, index by index.
-/
import proofs.«119485_j35983236006067_2_alg».proof.Proof.Gen.KernelIdeal.Frame
import proofs.«119485_j35983236006067_2_alg».proof.Proof.Spec
import proofs.«119485_j35983236006067_2_alg».proof.Proof.LibColumns
import Idealize.ShloMosaic.Lib.Pipeline.Value
import Idealize.ShloMosaic.Lib.ValueIdx

set_option maxRecDepth 16384

noncomputable section

namespace GcnRegion1

open Idealize.ShloMosaic Idealize.ShloMosaic.TcCoe Idealize.ShloMosaic.ValueIdx Idealize.SL.Sem
open Cert.KernelIdeal Cert.KernelIdeal.Gen

/-- The combine step at (p, q) of a block: sum times the row's factor, plus residual, rectified. -/
theorem combine_apply (x0 : Vec Ideal S4000x128 .f32) (x2 : Vec Ideal S4000x1 .f32) (x6 : Vec Ideal S4000x128 .f32)
    (p : Fin 4000) (q : Fin 128) :
    k1_pay1 (F := Ideal) x0 x2 x6 (ix2 p q) = GcnSpec.leaky (x0 (ix2 p q) * x2 (ix2 p (0 : Fin 1)) + x6 (ix2 p q)) := by
  have hb := LibColumns.broadcastTo_a1_ab_apply x2 broadcasts_S4000x1_S4000x128 p q
  unfold k1_pay1 GcnSpec.leaky
  simp only [shapeCast_self]
  rw [← hb]
  rfl

/-- The whole-array function the second grid computes. -/
def combined (s r : S100000x128.Idx → EReal) (d : S100000x1.Idx → EReal) : S100000x128.Idx → EReal :=
  fun j => GcnSpec.leaky (s j * d (ix2 (j 0) (0 : Fin 1)) + r j)

theorem combined_apply (s r : S100000x128.Idx → EReal) (d : S100000x1.Idx → EReal) (n : Fin 100000) (f : Fin 128) :
    combined s r d (ix2 n f) = GcnSpec.leaky (s (ix2 n f) * d (ix2 n (0 : Fin 1)) + r (ix2 n f)) := rfl

theorem offsets_zero : (![0, 0] : Fin 2 → Nat) = fun _ => 0 := funext fun a => by fin_cases a <;> rfl

/-- The block index maps, decided over the 25 grid points: every window's block moves with the point along the rows. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the whole-array function. -/
theorem flushed_eq (c : Dev nD) (t : Fin cfg1.N) :
    (dat1 (F := Ideal) V c).flushed 3 t
      = ((cfg1.win 3).blk t).view.read (Elt Ideal) (combined (V c main_v30) (V c main_v19_1) (V c main_v18)) := by
  show (cfg1.win 3).cut (grid1.coords t) ((dat1 V c).after 3 t) = _
  rw [after1_3]
  unfold out1_3
  rw [View.canon_unit_zero offsets_zero]
  simp only [View.ld_unit_zero (S := S4000x128) offsets_zero, View.ld_unit_zero (S := S4000x1) offsets_zero]
  obtain ⟨e00, e01, e10, e11, e20, e21, e30, e31⟩ := index_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 2 t) (iblk1 V c 1 t) (ix2 p q)
    = combined (V c main_v30) (V c main_v19_1) (V c main_v18) (((cfg1.win 3).blk t).view.emb (ix2 p q))
  refine (combine_apply _ _ _ p q).trans ?_
  unfold combined
  have h0 : iblk1 V c 0 t (ix2 p q) = V c main_v30 (((cfg1.win 3).blk t).view.emb (ix2 p q)) := by
    show V c main_v30 (((cfg1.win 0).blk t).view.emb (ix2 p q)) = _
    refine congrArg _ (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  have h1 : iblk1 V c 1 t (ix2 p q) = V c main_v19_1 (((cfg1.win 3).blk t).view.emb (ix2 p q)) := by
    show V c main_v19_1 (((cfg1.win 1).blk t).view.emb (ix2 p q)) = _
    refine congrArg _ (funext fun a => Fin.ext ?_)
    match a with
    | ⟨0, _⟩ => show win1_1.index t (0 : Fin 2) * 4000 + 1 * p.val = win1_3.index t (0 : Fin 2) * 4000 + 1 * p.val; omega
    | ⟨1, _⟩ => show win1_1.index t (1 : Fin 2) * 128 + 1 * q.val = win1_3.index t (1 : Fin 2) * 128 + 1 * q.val; omega
  have h2 : iblk1 V c 2 t (ix2 p (0 : Fin 1))
      = V c main_v18 (ix2 ((((cfg1.win 3).blk t).view.emb (ix2 p q)) 0) (0 : Fin 1)) := by
    show V c main_v18 (((cfg1.win 2).blk t).view.emb (ix2 p (0 : Fin 1))) = _
    refine congrArg _ (funext fun a => Fin.ext ?_)
    match a with
    | ⟨0, _⟩ => show win1_2.index t (0 : Fin 2) * 4000 + 1 * p.val = win1_3.index t (0 : Fin 2) * 4000 + 1 * p.val; omega
    | ⟨1, _⟩ => show win1_2.index t (1 : Fin 2) * 1 + 1 * 0 = 0; omega
  rw [h0, h1, h2]

/-- An index is in point t's block iff its row is among the block's 4000 rows. -/
theorem mem_blk (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v31).slice (win1_3.rect t)).set ↔ _
  rw [View.set_slice_whole, Rect.mem_set_unit]
  exact Iff.rfl

/-- THE RESULT ARRAY after the second grid: the combine step of the three arrays it read, index by index. -/
theorem final (c : Dev nD) :
    (dat1 (F := Ideal) V c).arrAt 3 cfg1.N = combined (V c main_v30) (V c main_v19_1) (V c main_v18) :=
  (dat1 (F := Ideal) V c).arrAt_eq_of_cover 3 _ (fun t _ => flushed_eq V c t) fun i => by
    have hN : grid1.N = 25 := N_1
    have hi0 : (i 0).val < 100000 := (i 0).isLt
    have hi1 : (i 1).val < 128 := (i 1).isLt
    refine ⟨⟨(i 0).val / 4000, by show (i 0).val / 4000 < grid1.N; omega⟩, flush1_3 _, ?_⟩
    rw [mem_blk]
    obtain ⟨-, -, -, -, -, -, e30, e31⟩ := index_facts ⟨(i 0).val / 4000, by show (i 0).val / 4000 < grid1.N; omega⟩
    intro a
    match a with
    | ⟨0, _⟩ =>
      show win1_3.index _ (0 : Fin 2) * 4000 ≤ (i 0).val ∧ (i 0).val < win1_3.index _ (0 : Fin 2) * 4000 + 4000
      rw [e30]; show (i 0).val / 4000 * 4000 ≤ (i 0).val ∧ (i 0).val < (i 0).val / 4000 * 4000 + 4000; omega
    | ⟨1, _⟩ =>
      show win1_3.index _ (1 : Fin 2) * 128 ≤ (i 1).val ∧ (i 1).val < win1_3.index _ (1 : Fin 2) * 128 + 128
      rw [e31]; omega

end GcnRegion1

end
-- ==== Proof.KernelValue.lean ====
/-
  The idealized kernel's result, as the layer's value.

  The contents of the result array after the last stretch are followed back through the program: the second grid
  combines the summed messages, the residual and the degree-factor column; the summed messages are the host's
  gather and scatter-add of the first grid's scaled messages over the edge lists; the first grid's two outputs are the
  scaled messages and the residual (with both biases) of the normalised features; the rows, the column and the lists
  the grids read are the host's reshapes of the launch arrays and the reference's own lists and degree factors. Put
  together, the result at node i and feature f is `GcnEdges.kerOut` of the ten launch arrays.
-/
import proofs.«119485_j35983236006067_2_alg».proof.Proof.HostReads
import proofs.«119485_j35983236006067_2_alg».proof.Proof.Region1

set_option maxRecDepth 16384

noncomputable section

namespace GcnKernelValue

open Idealize.ShloMosaic Idealize.ShloMosaic.TcCoe Idealize.ShloMosaic.ValueIdx Idealize.ShloMosaic.StableHlo Idealize.SL.Sem
open Cert.KernelIdeal Cert.KernelIdeal.Gen

/-- An array of per-feature values read at a feature; a node array read at a node and a feature. -/
abbrev vecAt (x : S128.Idx → EReal) (k : Fin 128) : EReal := x (ix1 k)
abbrev nodeAt (x : S100000x128.Idx → EReal) (i : Fin 100000) (f : Fin 128) : EReal := x (ix2 i f)

variable (m : (ℓ : Loc nD τ sig) → Buf (Elt Ideal) ℓ) (ρ : Dev nD → PrngReg) (c : Dev nD)

/-- The first grid finds the degree-factor column the host made. -/
theorem column_at_entry (n : Fin 100000) :
    (V1 (F := Ideal) m ρ c main_v18 : S100000x1.Idx → EReal) (ix2 n (0 : Fin 1))
      = GcnEdges.dinvAt (m ((c : Thread nD τ).loc main_arg1)) n :=
  GcnHost.dinv_column (W0 m ρ c) n

/-- The first grid's scaled messages, in the launch arrays. -/
theorem scaled_messages
    (hS : ∀ (n : Fin 100000) (f : Fin 128), ((dat0 (F := Ideal) (V1 m ρ) c).arrAt 9 cfg0.N : S100000x128.Idx → EReal) (ix2 n f)
      = GcnSpec.dense (GcnSpec.feat (fun j => (V1 (F := Ideal) m ρ c main_arg0 : S100000x128.Idx → EReal) (ix2 n j))
          (fun j => (V1 (F := Ideal) m ρ c main_v0 : S1x128.Idx → EReal) (ix2 (0 : Fin 1) j))
          (fun j => (V1 (F := Ideal) m ρ c main_v1 : S1x128.Idx → EReal) (ix2 (0 : Fin 1) j))
          (fun j => (V1 (F := Ideal) m ρ c main_v2 : S1x128.Idx → EReal) (ix2 (0 : Fin 1) j))
          (fun j => (V1 (F := Ideal) m ρ c main_v3 : S1x128.Idx → EReal) (ix2 (0 : Fin 1) j)))
          (V1 (F := Ideal) m ρ c main_arg2) f * (V1 (F := Ideal) m ρ c main_v18 : S100000x1.Idx → EReal) (ix2 n (0 : Fin 1)))
    (n : Fin 100000) (f : Fin 128) :
    ((dat0 (F := Ideal) (V1 m ρ) c).arrAt 9 cfg0.N : S100000x128.Idx → EReal) (ix2 n f)
      = GcnEdges.msgOf (m ((c : Thread nD τ).loc main_arg0)) (m ((c : Thread nD τ).loc main_arg2))
          (m ((c : Thread nD τ).loc main_arg4)) (m ((c : Thread nD τ).loc main_arg5)) (m ((c : Thread nD τ).loc main_arg6))
          (m ((c : Thread nD τ).loc main_arg7)) f n
        * GcnEdges.dinvAt (m ((c : Thread nD τ).loc main_arg1)) n := by
  rw [hS n f, column_at_entry]
  have h0 : (V1 (F := Ideal) m ρ c main_arg0 : S100000x128.Idx → EReal) = m ((c : Thread nD τ).loc main_arg0) :=
    GcnHost.arg0_kept (W0 m ρ c)
  have h2 : (V1 (F := Ideal) m ρ c main_arg2 : S128x128.Idx → EReal) = m ((c : Thread nD τ).loc main_arg2) :=
    GcnHost.arg2_kept (W0 m ρ c)
  have hm : (fun j => (V1 (F := Ideal) m ρ c main_v0 : S1x128.Idx → EReal) (ix2 (0 : Fin 1) j))
      = fun j => (m ((c : Thread nD τ).loc main_arg6) : S128.Idx → EReal) (ix1 j) := funext fun j => GcnHost.mean_row (W0 m ρ c) j
  have hv : (fun j => (V1 (F := Ideal) m ρ c main_v1 : S1x128.Idx → EReal) (ix2 (0 : Fin 1) j))
      = fun j => (m ((c : Thread nD τ).loc main_arg7) : S128.Idx → EReal) (ix1 j) := funext fun j => GcnHost.var_row (W0 m ρ c) j
  have hg : (fun j => (V1 (F := Ideal) m ρ c main_v2 : S1x128.Idx → EReal) (ix2 (0 : Fin 1) j))
      = fun j => (m ((c : Thread nD τ).loc main_arg4) : S128.Idx → EReal) (ix1 j) := funext fun j => GcnHost.gamma_row (W0 m ρ c) j
  have hb : (fun j => (V1 (F := Ideal) m ρ c main_v3 : S1x128.Idx → EReal) (ix2 (0 : Fin 1) j))
      = fun j => (m ((c : Thread nD τ).loc main_arg5) : S128.Idx → EReal) (ix1 j) := funext fun j => GcnHost.beta_row (W0 m ρ c) j
  rw [h0, h2, hm, hv, hg, hb]
  rfl

/-- The first grid's residual with both biases, in the launch arrays. -/
theorem residual
    (hR : ∀ (n : Fin 100000) (f : Fin 128), ((dat0 (F := Ideal) (V1 m ρ) c).arrAt 10 cfg0.N : S100000x128.Idx → EReal) (ix2 n f)
      = GcnSpec.dense (GcnSpec.feat (fun j => (V1 (F := Ideal) m ρ c main_arg0 : S100000x128.Idx → EReal) (ix2 n j))
          (fun j => (V1 (F := Ideal) m ρ c main_v0 : S1x128.Idx → EReal) (ix2 (0 : Fin 1) j))
          (fun j => (V1 (F := Ideal) m ρ c main_v1 : S1x128.Idx → EReal) (ix2 (0 : Fin 1) j))
          (fun j => (V1 (F := Ideal) m ρ c main_v2 : S1x128.Idx → EReal) (ix2 (0 : Fin 1) j))
          (fun j => (V1 (F := Ideal) m ρ c main_v3 : S1x128.Idx → EReal) (ix2 (0 : Fin 1) j)))
          (V1 (F := Ideal) m ρ c main_arg8) f + (V1 (F := Ideal) m ρ c main_v5 : S1x128.Idx → EReal) (ix2 (0 : Fin 1) f))
    (n : Fin 100000) (f : Fin 128) :
    ((dat0 (F := Ideal) (V1 m ρ) c).arrAt 10 cfg0.N : S100000x128.Idx → EReal) (ix2 n f)
      = GcnEdges.msgOf (m ((c : Thread nD τ).loc main_arg0)) (m ((c : Thread nD τ).loc main_arg8))
          (m ((c : Thread nD τ).loc main_arg4)) (m ((c : Thread nD τ).loc main_arg5)) (m ((c : Thread nD τ).loc main_arg6))
          (m ((c : Thread nD τ).loc main_arg7)) f n
        + (vecAt (m ((c : Thread nD τ).loc main_arg9)) f + vecAt (m ((c : Thread nD τ).loc main_arg3)) f) := by
  rw [hR n f]
  have h0 : (V1 (F := Ideal) m ρ c main_arg0 : S100000x128.Idx → EReal) = m ((c : Thread nD τ).loc main_arg0) :=
    GcnHost.arg0_kept (W0 m ρ c)
  have h8 : (V1 (F := Ideal) m ρ c main_arg8 : S128x128.Idx → EReal) = m ((c : Thread nD τ).loc main_arg8) :=
    GcnHost.arg8_kept (W0 m ρ c)
  have hm : (fun j => (V1 (F := Ideal) m ρ c main_v0 : S1x128.Idx → EReal) (ix2 (0 : Fin 1) j))
      = fun j => (m ((c : Thread nD τ).loc main_arg6) : S128.Idx → EReal) (ix1 j) := funext fun j => GcnHost.mean_row (W0 m ρ c) j
  have hv : (fun j => (V1 (F := Ideal) m ρ c main_v1 : S1x128.Idx → EReal) (ix2 (0 : Fin 1) j))
      = fun j => (m ((c : Thread nD τ).loc main_arg7) : S128.Idx → EReal) (ix1 j) := funext fun j => GcnHost.var_row (W0 m ρ c) j
  have hg : (fun j => (V1 (F := Ideal) m ρ c main_v2 : S1x128.Idx → EReal) (ix2 (0 : Fin 1) j))
      = fun j => (m ((c : Thread nD τ).loc main_arg4) : S128.Idx → EReal) (ix1 j) := funext fun j => GcnHost.gamma_row (W0 m ρ c) j
  have hb : (fun j => (V1 (F := Ideal) m ρ c main_v3 : S1x128.Idx → EReal) (ix2 (0 : Fin 1) j))
      = fun j => (m ((c : Thread nD τ).loc main_arg5) : S128.Idx → EReal) (ix1 j) := funext fun j => GcnHost.beta_row (W0 m ρ c) j
  have hbias : (V1 (F := Ideal) m ρ c main_v5 : S1x128.Idx → EReal) (ix2 (0 : Fin 1) f)
      = vecAt (m ((c : Thread nD τ).loc main_arg9)) f + vecAt (m ((c : Thread nD τ).loc main_arg3)) f :=
    GcnHost.bias_row (W0 m ρ c) _ _ rfl rfl f
  rw [h0, h8, hm, hv, hg, hb, hbias]
  rfl

/-- THE RESULT ARRAY after the last stretch, at node i and feature f, is the layer's value in the arrangement that scales
    each message at its source and the sum at its destination. -/
theorem result_apply
    (hS : ∀ (n : Fin 100000) (f : Fin 128), ((dat0 (F := Ideal) (V1 m ρ) c).arrAt 9 cfg0.N : S100000x128.Idx → EReal) (ix2 n f)
      = GcnEdges.msgOf (m ((c : Thread nD τ).loc main_arg0)) (m ((c : Thread nD τ).loc main_arg2))
          (m ((c : Thread nD τ).loc main_arg4)) (m ((c : Thread nD τ).loc main_arg5)) (m ((c : Thread nD τ).loc main_arg6))
          (m ((c : Thread nD τ).loc main_arg7)) f n
        * GcnEdges.dinvAt (m ((c : Thread nD τ).loc main_arg1)) n)
    (hR : ∀ (n : Fin 100000) (f : Fin 128), ((dat0 (F := Ideal) (V1 m ρ) c).arrAt 10 cfg0.N : S100000x128.Idx → EReal) (ix2 n f)
      = GcnEdges.msgOf (m ((c : Thread nD τ).loc main_arg0)) (m ((c : Thread nD τ).loc main_arg8))
          (m ((c : Thread nD τ).loc main_arg4)) (m ((c : Thread nD τ).loc main_arg5)) (m ((c : Thread nD τ).loc main_arg6))
          (m ((c : Thread nD τ).loc main_arg7)) f n
        + (vecAt (m ((c : Thread nD τ).loc main_arg9)) f + vecAt (m ((c : Thread nD τ).loc main_arg3)) f))
    (i : Fin 100000) (f : Fin 128) :
    (W4 (F := Ideal) m ρ c (Proc.devRef .tc main_v31) : S100000x128.Idx → EReal) (ix2 i f)
      = GcnEdges.kerOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) i f := by
  have h4 : (W4 (F := Ideal) m ρ c (Proc.devRef .tc main_v31) : S100000x128.Idx → EReal)
      = GcnRegion1.combined (V3 (F := Ideal) m ρ c main_v30) (V3 (F := Ideal) m ρ c main_v19_1) (V3 (F := Ideal) m ρ c main_v18) :=
    (W4_arr m ρ c 3).trans (GcnRegion1.final (V3 m ρ) c)
  rw [h4, GcnRegion1.combined_apply]
  -- the column, the residual, the summed messages, each as the second grid finds it
  have hcol18 : W2 (F := Ideal) m ρ c (Proc.devRef .tc main_v18) = StableHlo.after (hostOps0 (F := Ideal)) (W0 m ρ c) (Proc.devRef .tc main_v18) :=
    (W2_arr m ρ c 1).trans (((dat0 (V1 m ρ) c).arrAt_in 1 rfl _).trans (A_eq0 (V1 m ρ) c 1))
  have hd : (V3 (F := Ideal) m ρ c main_v18 : S100000x1.Idx → EReal) (ix2 i (0 : Fin 1))
      = GcnEdges.dinvAt (m ((c : Thread nD τ).loc main_arg1)) i := by
    show (StableHlo.after (hostOps1 (F := Ideal)) (W2 m ρ c) (Proc.devRef .tc main_v18) : S100000x1.Idx → EReal) (ix2 i (0 : Fin 1)) = _
    rw [GcnHost.dinv_kept, hcol18]
    exact GcnHost.dinv_column (W0 m ρ c) i
  have hr : (V3 (F := Ideal) m ρ c main_v19_1 : S100000x128.Idx → EReal) (ix2 i f)
      = GcnEdges.msgOf (m ((c : Thread nD τ).loc main_arg0)) (m ((c : Thread nD τ).loc main_arg8))
          (m ((c : Thread nD τ).loc main_arg4)) (m ((c : Thread nD τ).loc main_arg5)) (m ((c : Thread nD τ).loc main_arg6))
          (m ((c : Thread nD τ).loc main_arg7)) f i
        + (vecAt (m ((c : Thread nD τ).loc main_arg9)) f + vecAt (m ((c : Thread nD τ).loc main_arg3)) f) := by
    show (StableHlo.after (hostOps1 (F := Ideal)) (W2 m ρ c) (Proc.devRef .tc main_v19_1) : S100000x128.Idx → EReal) (ix2 i f) = _
    rw [GcnHost.resid_kept, W2_arr m ρ c 10]
    exact hR i f
  have hdst : (W2 (F := Ideal) m ρ c (Proc.devRef .tc main_v12) : S1700000.Idx → BitVec 32)
      = Cert.ReferenceIdeal.Read.val_main_v29 (F := Ideal) (m ((c : Thread nD τ).loc main_arg1)) :=
    (W2_of_ne m ρ c main_v12 (by decide)).trans (GcnHost.dst_list (W0 m ρ c))
  have hsrc : (W2 (F := Ideal) m ρ c (Proc.devRef .tc main_v9) : S1700000.Idx → BitVec 32)
      = Cert.ReferenceIdeal.Read.val_main_v26 (F := Ideal) (m ((c : Thread nD τ).loc main_arg1)) :=
    (W2_of_ne m ρ c main_v9 (by decide)).trans (GcnHost.src_list (W0 m ρ c))
  have hs : nodeAt (V3 (F := Ideal) m ρ c main_v30) i f
      = ∑ e : Fin 1700000, if GcnEdges.dstZ (m ((c : Thread nD τ).loc main_arg1)) e = (i.val : ℤ)
          then GcnEdges.msgOf (m ((c : Thread nD τ).loc main_arg0)) (m ((c : Thread nD τ).loc main_arg2))
              (m ((c : Thread nD τ).loc main_arg4)) (m ((c : Thread nD τ).loc main_arg5)) (m ((c : Thread nD τ).loc main_arg6))
              (m ((c : Thread nD τ).loc main_arg7)) f (GcnEdges.srcRow (m ((c : Thread nD τ).loc main_arg1)) e)
            * GcnEdges.dinvAt (m ((c : Thread nD τ).loc main_arg1)) (GcnEdges.srcRow (m ((c : Thread nD τ).loc main_arg1)) e)
          else 0 := by
    have key : (∑ e : Fin 1700000, if GcnEdges.dstZ (m ((c : Thread nD τ).loc main_arg1)) e = (i.val : ℤ)
          then nodeAt ((dat0 (F := Ideal) (V1 m ρ) c).arrAt 9 cfg0.N) (GcnEdges.srcRow (m ((c : Thread nD τ).loc main_arg1)) e) f else 0)
        = ∑ e : Fin 1700000, if GcnEdges.dstZ (m ((c : Thread nD τ).loc main_arg1)) e = (i.val : ℤ)
          then GcnEdges.msgOf (m ((c : Thread nD τ).loc main_arg0)) (m ((c : Thread nD τ).loc main_arg2))
              (m ((c : Thread nD τ).loc main_arg4)) (m ((c : Thread nD τ).loc main_arg5)) (m ((c : Thread nD τ).loc main_arg6))
              (m ((c : Thread nD τ).loc main_arg7)) f (GcnEdges.srcRow (m ((c : Thread nD τ).loc main_arg1)) e)
            * GcnEdges.dinvAt (m ((c : Thread nD τ).loc main_arg1)) (GcnEdges.srcRow (m ((c : Thread nD τ).loc main_arg1)) e)
          else 0 :=
      Finset.sum_congr rfl fun e _ => if_congr Iff.rfl (hS _ f) rfl
    exact (GcnHost.summed_messages (W2 m ρ c) (m ((c : Thread nD τ).loc main_arg1)) _ hdst hsrc (W2_arr m ρ c 9) i f).trans key
  unfold GcnEdges.kerOut GcnSpec.aggScaledOnce
  exact congrArg GcnSpec.leaky (congrArg₂ (fun a b : EReal => a + b) (congrArg₂ (fun a b : EReal => a * b) hs hd) hr)

end GcnKernelValue

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.Region0Pay.lean ====
/-
  The first grid of blocks, one block at a time: what the body leaves in its two output blocks, read at an entry.

  A block holds 4000 rows of 128 features. The body scales each row to unit length (the length kept from below by a
  small guard), normalises it with the running mean and variance, scale and shift, and applies two dense maps to the
  result. The first product, multiplied by the row's degree factor, is the row's message; the second, plus the bias
  row, is its residual. Rounding to a narrower float format is the identity at the ideal values, the lane sum is a
  plain sum over the 128 lanes, and a matrix product into zeros is the plain sum over the contraction index, so
  entry (p, q) of either output block is the specification's dense map of row p's features, scaled or biased.
-/
import proofs.«119485_j35983236006067_2_alg».proof.Proof.Gen.KernelIdeal.Frame
import proofs.«119485_j35983236006067_2_alg».proof.Proof.Spec
import proofs.«119485_j35983236006067_2_alg».proof.Proof.LibPlainProduct
import proofs.«119485_j35983236006067_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace GcnRegion0Pay

open Cert.KernelIdeal Cert.KernelIdeal.Gen Idealize.ShloMosaic Idealize.ShloMosaic.ValueIdx

/-- The sum over the 128 lanes of a 4000 × 128 block, read at row p. -/
theorem laneSum_apply (v : FVec Ideal S4000x128 .f32) (h : S4000x128.Reduces [1] S4000) (hφ : FKind.Formats .f32)
    (hacc : (0x00000000#32 : BitVec 32) = 0x00000000#32) (p : Fin 4000) :
    multiReduction (F := Ideal) .add [1] S4000 v 0x00000000#32 h hφ hacc (ix1 p) = ∑ k : Fin 128, v (ix2 p k) := by
  refine (Ideal.multiReduction_add_single v 0x00000000#32 h hφ hacc (ix1 p)).trans ?_
  show (∑ k : Fin 128, v (h.lift (ix1 p) k)) = _
  refine Finset.sum_congr rfl fun k _ => congrArg v (funext fun c => Fin.ext ?_)
  match c with
  | ⟨0, _⟩ => rfl
  | ⟨1, _⟩ => rfl

/-- A 1 × 128 row spread over the 4000 rows of a block reads, at (p, k), the row at k. -/
theorem rowSpread_apply (w : FVec Ideal S1x128 .f32) (h : S1x128.Broadcasts S4000x128) (p : Fin 4000) (k : Fin 128) :
    broadcastTo S4000x128 w h (ix2 p k) = w (ix2 0 k) :=
  broadcastTo_1b_ab_apply w h p k

/-- The guarded length of row p, kept as a column and spread over the lanes: at (p, k) it is the larger of the
    root of the row's sum of squares and the guard. -/
theorem guardedNorm_apply (x0 : Vec Ideal S4000x128 .f32) (h : S4000x128.Reduces [1] S4000) (hφ : FKind.Formats .f32)
    (hacc : (0x00000000#32 : BitVec 32) = 0x00000000#32) (hc : S4000.ShapeCasts S4000x1) (hb : S4000x1.Broadcasts S4000x128)
    (g : EReal) (p : Fin 4000) (k : Fin 128) :
    broadcastTo S4000x128
        (maximumf (sqrt (shapeCast S4000x1 (multiReduction (F := Ideal) .add [1] S4000 (mulf x0 x0) 0x00000000#32 h hφ hacc) hc))
          (broadcast S4000x1 g)) hb (ix2 p k)
      = max (Ideal.sqrt (∑ j : Fin 128, x0 (ix2 p j) * x0 (ix2 p j))) g := by
  refine (LibColumns.broadcastTo_a1_ab_apply _ hb p k).trans ?_
  show max (Ideal.sqrt (shapeCast S4000x1 _ hc (ix2 p 0))) g = _
  refine congrArg (fun z => max (Ideal.sqrt z) g) ?_
  refine (LibColumns.shapeCast_a_a1_apply _ hc p 0).trans ?_
  exact laneSum_apply (mulf x0 x0) h hφ hacc p

/-- THE FEATURES OF A ROW. The body's feature term, read at (p, k), is feature k of row p of the block: the row scaled
    to unit length under the guard, then normalised with the running statistics. Rounding to the narrower format
    changes nothing at the ideal values. -/
theorem feat_apply (x0 : Vec Ideal S4000x128 .f32) (xvar xmean xgamma xbeta : Vec Ideal S1x128 .f32) (p : Fin 4000) (k : Fin 128) :
    k0_pay3 (F := Ideal) x0 xvar xmean xgamma xbeta (ix2 p k)
      = GcnSpec.feat (fun j => x0 (ix2 p j)) (fun j => xmean (ix2 0 j)) (fun j => xvar (ix2 0 j))
          (fun j => xgamma (ix2 0 j)) (fun j => xbeta (ix2 0 j)) k := by
  unfold k0_pay3 GcnSpec.feat
  dsimp only
  simp only [truncf_apply, addf_apply, mulf_apply, subf_apply, divf_apply, rowSpread_apply, shapeCast_self]
  rw [guardedNorm_apply]
  rfl

/-- A DENSE MAP OF THE FEATURES. Either matrix product of the body, read at (p, q), is the dense map of row p's
    features with the given weights: the product accumulates into zeros and the operands' narrower format changes
    nothing at the ideal values. -/
theorem msg_apply (x0 : Vec Ideal S4000x128 .f32) (xvar xmean xgamma xbeta : Vec Ideal S1x128 .f32)
    (w : Vec Ideal S128x128 .f32) (p : Fin 4000) (q : Fin 128) :
    k0_pay4 (F := Ideal) x0 xvar xmean xgamma xbeta w (ix2 p q)
      = GcnSpec.dense (GcnSpec.feat (fun j => x0 (ix2 p j)) (fun j => xmean (ix2 0 j)) (fun j => xvar (ix2 0 j))
          (fun j => xgamma (ix2 0 j)) (fun j => xbeta (ix2 0 j))) w q := by
  unfold k0_pay4 GcnSpec.dense
  refine (PlainProduct.matmul_zero_apply dot_S4000x128_S128x128_S4000x128_1_0_0_1_n_n_wf none _ _ p q).trans ?_
  refine Finset.sum_congr rfl fun k _ => ?_
  rw [feat_apply]
  rfl

/-- The same for the second product, with the residual weights. -/
theorem res_apply (x0 : Vec Ideal S4000x128 .f32) (xvar xmean xgamma xbeta : Vec Ideal S1x128 .f32)
    (w : Vec Ideal S128x128 .f32) (p : Fin 4000) (q : Fin 128) :
    k0_pay5 (F := Ideal) x0 xvar xmean xgamma xbeta w (ix2 p q)
      = GcnSpec.dense (GcnSpec.feat (fun j => x0 (ix2 p j)) (fun j => xmean (ix2 0 j)) (fun j => xvar (ix2 0 j))
          (fun j => xgamma (ix2 0 j)) (fun j => xbeta (ix2 0 j))) w q := by
  unfold k0_pay5 GcnSpec.dense
  refine (PlainProduct.matmul_zero_apply dot_S4000x128_S128x128_S4000x128_1_0_0_1_n_n_wf none _ _ p q).trans ?_
  refine Finset.sum_congr rfl fun k _ => ?_
  rw [feat_apply]
  rfl

/-- The message scaled by the per-row factor: the 4000 × 1 column spread over the lanes and multiplied in. -/
theorem scaled_apply (a : FVec Ideal S4000x128 .f32) (col : Vec Ideal S4000x1 .f32) (p : Fin 4000) (q : Fin 128) :
    k0_pay2 (F := Ideal) a col (ix2 p q) = a (ix2 p q) * col (ix2 p 0) := by
  unfold k0_pay2
  simp only [truncf_apply, mulf_apply, shapeCast_self]
  rw [LibColumns.broadcastTo_a1_ab_apply]

/-- The bias row spread over the rows of the block. -/
theorem bias_apply (b : Vec Ideal S1x128 .f32) (p : Fin 4000) (q : Fin 128) :
    k0_pay6 (F := Ideal) b (ix2 p q) = b (ix2 0 q) := by
  unfold k0_pay6
  simp only [shapeCast_self]
  exact rowSpread_apply b _ p q

/-- The residual: the second product plus the bias row. -/
theorem biased_apply (a b : FVec Ideal S4000x128 .f32) (j : S4000x128.Idx) :
    k0_pay1 (F := Ideal) a b j = a j + b j := rfl

/-- The zero offsets of a whole-block access, spelt as a constant function. -/
theorem offsets_zero : (![0, 0] : Fin 2 → Nat) = fun _ => 0 := funext fun a => by fin_cases a <;> rfl

/-- THE MESSAGE BLOCK at (p, q): the dense map of row p's features with the first weights, times row p's factor. -/
theorem scaled_block_apply (x0 : Vec Ideal S4000x128 .f32) (x1 : Vec Ideal S4000x1 .f32) (x2 x3 : Vec Ideal S128x128 .f32)
    (x4 x5 x6 x7 x8 : Vec Ideal S1x128 .f32) (p : Fin 4000) (q : Fin 128) :
    out0_9 (F := Ideal) x0 x1 x2 x3 x4 x5 x6 x7 x8 (ix2 p q)
      = GcnSpec.dense (GcnSpec.feat (fun j => x0 (ix2 p j)) (fun j => x4 (ix2 (0 : Fin 1) j)) (fun j => x5 (ix2 (0 : Fin 1) j))
          (fun j => x6 (ix2 (0 : Fin 1) j)) (fun j => x7 (ix2 (0 : Fin 1) j))) x2 q * x1 (ix2 p (0 : Fin 1)) := by
  unfold out0_9
  rw [View.canon_unit_zero offsets_zero]
  simp only [View.ld_unit_zero (S := S4000x128) offsets_zero, View.ld_unit_zero (S := S4000x1) offsets_zero,
    View.ld_unit_zero (S := S1x128) offsets_zero, View.ld_unit_zero (S := S128x128) offsets_zero]
  refine (scaled_apply _ x1 p q).trans ?_
  rw [msg_apply]

/-- THE RESIDUAL BLOCK at (p, q): the dense map of row p's features with the second weights, plus the bias at q. -/
theorem resid_block_apply (x0 : Vec Ideal S4000x128 .f32) (x1 : Vec Ideal S4000x1 .f32) (x2 x3 : Vec Ideal S128x128 .f32)
    (x4 x5 x6 x7 x8 : Vec Ideal S1x128 .f32) (p : Fin 4000) (q : Fin 128) :
    out0_10 (F := Ideal) x0 x1 x2 x3 x4 x5 x6 x7 x8 (ix2 p q)
      = GcnSpec.dense (GcnSpec.feat (fun j => x0 (ix2 p j)) (fun j => x4 (ix2 (0 : Fin 1) j)) (fun j => x5 (ix2 (0 : Fin 1) j))
          (fun j => x6 (ix2 (0 : Fin 1) j)) (fun j => x7 (ix2 (0 : Fin 1) j))) x3 q + x8 (ix2 (0 : Fin 1) q) := by
  unfold out0_10
  rw [View.canon_unit_zero offsets_zero]
  simp only [View.ld_unit_zero (S := S4000x128) offsets_zero, View.ld_unit_zero (S := S1x128) offsets_zero,
    View.ld_unit_zero (S := S128x128) offsets_zero]
  refine (biased_apply _ _ (ix2 p q)).trans ?_
  rw [res_apply, bias_apply]

end GcnRegion0Pay

end
-- ==== Proof.Region0.lean ====
/-
  The first grid of blocks: normalise, multiply by the two weight matrices, scale — as two whole-array functions.

  Block t covers rows 4000·t … 4000·t + 3999. At a row n the step scales the node's feature row to unit length and
  batch-normalises it, multiplies the row by the layer's weights and by the residual weights, and leaves, at feature f,
  the message times the row's degree factor in the first result and the residual plus the residual bias in the second.
  A point reads its own 4000 rows of the features and of the degree factors; the two weight matrices and the five
  per-feature rows it reads whole, at block (0, 0), whatever the point. Each of the 25 blocks writes back exactly its own
  rows of each result and the blocks tile the arrays, so after the grid each result array holds its function of the
  arrays the grid read, index by index.
-/
import proofs.«119485_j35983236006067_2_alg».proof.Proof.Gen.KernelIdeal.Frame
import proofs.«119485_j35983236006067_2_alg».proof.Proof.Spec
import proofs.«119485_j35983236006067_2_alg».proof.Proof.Region0Pay
import Idealize.ShloMosaic.Lib.Pipeline.Value
import Idealize.ShloMosaic.Lib.ValueIdx

set_option maxRecDepth 16384

noncomputable section

namespace GcnRegion0

open Idealize.ShloMosaic Idealize.ShloMosaic.TcCoe Idealize.ShloMosaic.ValueIdx Idealize.SL.Sem
open Cert.KernelIdeal Cert.KernelIdeal.Gen

/-- A node's normalised feature row, from the feature array and the four per-feature rows. -/
def rowFeat (x : S100000x128.Idx → EReal) (mean var gamma beta : S1x128.Idx → EReal) (n : Fin 100000) : Fin 128 → EReal :=
  GcnSpec.feat (fun k => x (ix2 n k)) (fun k => mean (ix2 (0 : Fin 1) k)) (fun k => var (ix2 (0 : Fin 1) k))
    (fun k => gamma (ix2 (0 : Fin 1) k)) (fun k => beta (ix2 (0 : Fin 1) k))

/-- The whole-array function the first grid leaves in its first result: every node's message, scaled by the node's factor. -/
def scaledMsg (x : S100000x128.Idx → EReal) (d : S100000x1.Idx → EReal) (w : S128x128.Idx → EReal)
    (mean var gamma beta : S1x128.Idx → EReal) : S100000x128.Idx → EReal :=
  fun j => GcnSpec.dense (rowFeat x mean var gamma beta (j 0)) w (j 1) * d (ix2 (j 0) (0 : Fin 1))

/-- The whole-array function the first grid leaves in its second result: every node's residual with its bias. -/
def resid (x : S100000x128.Idx → EReal) (w : S128x128.Idx → EReal) (mean var gamma beta bias : S1x128.Idx → EReal) :
    S100000x128.Idx → EReal :=
  fun j => GcnSpec.dense (rowFeat x mean var gamma beta (j 0)) w (j 1) + bias (ix2 (0 : Fin 1) (j 1))

theorem scaledMsg_apply (x : S100000x128.Idx → EReal) (d : S100000x1.Idx → EReal) (w : S128x128.Idx → EReal)
    (mean var gamma beta : S1x128.Idx → EReal) (n : Fin 100000) (f : Fin 128) :
    scaledMsg x d w mean var gamma beta (ix2 n f)
      = GcnSpec.dense (rowFeat x mean var gamma beta n) w f * d (ix2 n (0 : Fin 1)) := rfl

theorem resid_fn_apply (x : S100000x128.Idx → EReal) (w : S128x128.Idx → EReal) (mean var gamma beta bias : S1x128.Idx → EReal)
    (n : Fin 100000) (f : Fin 128) :
    resid x w mean var gamma beta bias (ix2 n f)
      = GcnSpec.dense (rowFeat x mean var gamma beta n) w f + bias (ix2 (0 : Fin 1) f) := rfl

/-- The block index maps, decided over the 25 grid points: the feature block, the factor block and the two result blocks
    move with the point along the rows; the weights and the per-feature rows are whole arrays at block (0, 0). -/
theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

variable (V : (c : Dev nD) → (b : Ref sig .tc) → Buf (Elt Ideal) ((c : Thread nD τ).loc b))

/-- The weights and the per-feature rows a point reads are the whole arrays. -/
theorem whole_blocks (c : Dev nD) (t : Fin cfg0.N) :
    iblk0 V c 2 t = V c main_arg2 ∧ iblk0 V c 3 t = V c main_arg8 ∧ iblk0 V c 4 t = V c main_v0
      ∧ iblk0 V c 5 t = V c main_v1 ∧ iblk0 V c 6 t = V c main_v2 ∧ iblk0 V c 7 t = V c main_v3
      ∧ iblk0 V c 8 t = V c main_v5 := by
  obtain ⟨-, -, ⟨e20, e21⟩, ⟨e30, e31⟩, ⟨e40, e41⟩, ⟨e50, e51⟩, ⟨e60, e61⟩, ⟨e70, e71⟩, ⟨e80, e81⟩, -, -⟩ := index_facts t
  refine ⟨?_, ?_, ?_, ?_, ?_, ?_, ?_⟩
  · funext j
    show V c main_arg2 (((cfg0.win 2).blk t).view.emb j) = V c main_arg2 j
    refine congrArg _ (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  · funext j
    show V c main_arg8 (((cfg0.win 3).blk t).view.emb j) = V c main_arg8 j
    refine congrArg _ (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega
  · funext j
    show V c main_v0 (((cfg0.win 4).blk t).view.emb j) = V c main_v0 j
    refine congrArg _ (funext fun a => Fin.ext ?_)
    match a with
    | ⟨0, _⟩ => show win0_4.index t (0 : Fin 2) * 1 + 1 * (j 0).val = (j 0).val; omega
    | ⟨1, _⟩ => show win0_4.index t (1 : Fin 2) * 128 + 1 * (j 1).val = (j 1).val; omega
  · funext j
    show V c main_v1 (((cfg0.win 5).blk t).view.emb j) = V c main_v1 j
    refine congrArg _ (funext fun a => Fin.ext ?_)
    match a with
    | ⟨0, _⟩ => show win0_5.index t (0 : Fin 2) * 1 + 1 * (j 0).val = (j 0).val; omega
    | ⟨1, _⟩ => show win0_5.index t (1 : Fin 2) * 128 + 1 * (j 1).val = (j 1).val; omega
  · funext j
    show V c main_v2 (((cfg0.win 6).blk t).view.emb j) = V c main_v2 j
    refine congrArg _ (funext fun a => Fin.ext ?_)
    match a with
    | ⟨0, _⟩ => show win0_6.index t (0 : Fin 2) * 1 + 1 * (j 0).val = (j 0).val; omega
    | ⟨1, _⟩ => show win0_6.index t (1 : Fin 2) * 128 + 1 * (j 1).val = (j 1).val; omega
  · funext j
    show V c main_v3 (((cfg0.win 7).blk t).view.emb j) = V c main_v3 j
    refine congrArg _ (funext fun a => Fin.ext ?_)
    match a with
    | ⟨0, _⟩ => show win0_7.index t (0 : Fin 2) * 1 + 1 * (j 0).val = (j 0).val; omega
    | ⟨1, _⟩ => show win0_7.index t (1 : Fin 2) * 128 + 1 * (j 1).val = (j 1).val; omega
  · funext j
    show V c main_v5 (((cfg0.win 8).blk t).view.emb j) = V c main_v5 j
    refine congrArg _ (funext fun a => Fin.ext ?_)
    match a with
    | ⟨0, _⟩ => show win0_8.index t (0 : Fin 2) * 1 + 1 * (j 0).val = (j 0).val; omega
    | ⟨1, _⟩ => show win0_8.index t (1 : Fin 2) * 128 + 1 * (j 1).val = (j 1).val; omega

/-- What point t writes back to the first result is block t of the scaled-message function. -/
theorem flushed9_eq (c : Dev nD) (t : Fin cfg0.N) :
    (dat0 (F := Ideal) V c).flushed 9 t
      = ((cfg0.win 9).blk t).view.read (Elt Ideal) (scaledMsg (V c main_arg0) (V c main_v18) (V c main_arg2)
          (V c main_v0) (V c main_v1) (V c main_v2) (V c main_v3)) := by
  show (cfg0.win 9).cut (grid0.coords t) ((dat0 V c).after 9 t) = _
  rw [after0_9]
  obtain ⟨⟨e00, e01⟩, ⟨e10, e11⟩, -, -, -, -, -, -, -, ⟨e90, e91⟩, -⟩ := index_facts t
  obtain ⟨h2, -, h4, h5, h6, h7, -⟩ := whole_blocks V c t
  have hN : grid0.N = 25 := N_0
  have ht : t.val < grid0.N := t.isLt
  funext j
  obtain ⟨p, q, rfl⟩ : ∃ (p : Fin 4000) (q : Fin 128), j = ix2 p q := ⟨j 0, j 1, eq_ix2 j⟩
  show out0_9 (F := Ideal) (iblk0 V c 0 t) (iblk0 V c 1 t) (iblk0 V c 2 t) (iblk0 V c 3 t) (iblk0 V c 4 t)
      (iblk0 V c 5 t) (iblk0 V c 6 t) (iblk0 V c 7 t) (iblk0 V c 8 t) (ix2 p q)
    = scaledMsg (V c main_arg0) (V c main_v18) (V c main_arg2) (V c main_v0) (V c main_v1) (V c main_v2) (V c main_v3)
        (((cfg0.win 9).blk t).view.emb (ix2 p q))
  refine (GcnRegion0Pay.scaled_block_apply _ _ _ _ _ _ _ _ _ p q).trans ?_
  have hp : p.val < 4000 := p.isLt
  have hemb : ((cfg0.win 9).blk t).view.emb (ix2 p q)
      = ix2 (⟨t.val * 4000 + p.val, by omega⟩ : Fin 100000) q := funext fun a => Fin.ext (by
    match a with
    | ⟨0, _⟩ => show win0_9.index t (0 : Fin 2) * 4000 + 1 * p.val = t.val * 4000 + p.val; omega
    | ⟨1, _⟩ => show win0_9.index t (1 : Fin 2) * 128 + 1 * q.val = q.val; omega)
  have hrow : (fun k : Fin 128 => iblk0 V c 0 t (ix2 p k))
      = fun k : Fin 128 => V c main_arg0 (ix2 (⟨t.val * 4000 + p.val, by omega⟩ : Fin 100000) k) := funext fun k => by
    show V c main_arg0 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have hd : iblk0 V c 1 t (ix2 p (0 : Fin 1))
      = V c main_v18 (ix2 (⟨t.val * 4000 + p.val, by omega⟩ : Fin 100000) (0 : Fin 1)) := by
    show V c main_v18 (((cfg0.win 1).blk t).view.emb (ix2 p (0 : Fin 1))) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 1 + 1 * 0 = 0; omega
  rw [hemb, scaledMsg_apply, hrow, hd, h2, h4, h5, h6, h7]
  rfl

/-- What point t writes back to the second result is block t of the residual function. -/
theorem flushed10_eq (c : Dev nD) (t : Fin cfg0.N) :
    (dat0 (F := Ideal) V c).flushed 10 t
      = ((cfg0.win 10).blk t).view.read (Elt Ideal) (resid (V c main_arg0) (V c main_arg8)
          (V c main_v0) (V c main_v1) (V c main_v2) (V c main_v3) (V c main_v5)) := by
  show (cfg0.win 10).cut (grid0.coords t) ((dat0 V c).after 10 t) = _
  rw [after0_10]
  obtain ⟨⟨e00, e01⟩, -, -, -, -, -, -, -, -, -, ⟨e100, e101⟩⟩ := index_facts t
  obtain ⟨-, h3, h4, h5, h6, h7, h8⟩ := whole_blocks V c t
  have hN : grid0.N = 25 := N_0
  have ht : t.val < grid0.N := t.isLt
  funext j
  obtain ⟨p, q, rfl⟩ : ∃ (p : Fin 4000) (q : Fin 128), j = ix2 p q := ⟨j 0, j 1, eq_ix2 j⟩
  show out0_10 (F := Ideal) (iblk0 V c 0 t) (iblk0 V c 1 t) (iblk0 V c 2 t) (iblk0 V c 3 t) (iblk0 V c 4 t)
      (iblk0 V c 5 t) (iblk0 V c 6 t) (iblk0 V c 7 t) (iblk0 V c 8 t) (ix2 p q)
    = resid (V c main_arg0) (V c main_arg8) (V c main_v0) (V c main_v1) (V c main_v2) (V c main_v3) (V c main_v5)
        (((cfg0.win 10).blk t).view.emb (ix2 p q))
  refine (GcnRegion0Pay.resid_block_apply _ _ _ _ _ _ _ _ _ p q).trans ?_
  have hp : p.val < 4000 := p.isLt
  have hemb : ((cfg0.win 10).blk t).view.emb (ix2 p q)
      = ix2 (⟨t.val * 4000 + p.val, by omega⟩ : Fin 100000) q := funext fun a => Fin.ext (by
    match a with
    | ⟨0, _⟩ => show win0_10.index t (0 : Fin 2) * 4000 + 1 * p.val = t.val * 4000 + p.val; omega
    | ⟨1, _⟩ => show win0_10.index t (1 : Fin 2) * 128 + 1 * q.val = q.val; omega)
  have hrow : (fun k : Fin 128 => iblk0 V c 0 t (ix2 p k))
      = fun k : Fin 128 => V c main_arg0 (ix2 (⟨t.val * 4000 + p.val, by omega⟩ : Fin 100000) k) := funext fun k => by
    show V c main_arg0 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  rw [hemb, resid_fn_apply, hrow, h3, h4, h5, h6, h7, h8]
  rfl

/-- An index is in point t's block of the first result iff its row is among the block's 4000 rows. -/
theorem mem_blk9 (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v19_0).slice (win0_9.rect t)).set ↔ _
  rw [View.set_slice_whole, Rect.mem_set_unit]
  exact Iff.rfl

/-- The same of the second result. -/
theorem mem_blk10 (t : Fin cfg0.N) (i : S100000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v19_1).slice (win0_10.rect t)).set ↔ _
  rw [View.set_slice_whole, Rect.mem_set_unit]
  exact Iff.rfl

/-- THE FIRST RESULT ARRAY after the first grid: every node's scaled message, index by index. -/
theorem final9 (c : Dev nD) :
    (dat0 (F := Ideal) V c).arrAt 9 cfg0.N = scaledMsg (V c main_arg0) (V c main_v18) (V c main_arg2)
      (V c main_v0) (V c main_v1) (V c main_v2) (V c main_v3) :=
  (dat0 (F := Ideal) V c).arrAt_eq_of_cover 9 _ (fun t _ => flushed9_eq V c t) fun i => by
    have hN : grid0.N = 25 := N_0
    have hi0 : (i 0).val < 100000 := (i 0).isLt
    have hi1 : (i 1).val < 128 := (i 1).isLt
    refine ⟨⟨(i 0).val / 4000, by show (i 0).val / 4000 < grid0.N; omega⟩, flush0_9 _, ?_⟩
    rw [mem_blk9]
    obtain ⟨-, -, -, -, -, -, -, -, -, ⟨e90, e91⟩, -⟩ := index_facts ⟨(i 0).val / 4000, by show (i 0).val / 4000 < grid0.N; omega⟩
    intro a
    match a with
    | ⟨0, _⟩ =>
      show win0_9.index _ (0 : Fin 2) * 4000 ≤ (i 0).val ∧ (i 0).val < win0_9.index _ (0 : Fin 2) * 4000 + 4000
      rw [e90]; show (i 0).val / 4000 * 4000 ≤ (i 0).val ∧ (i 0).val < (i 0).val / 4000 * 4000 + 4000; omega
    | ⟨1, _⟩ =>
      show win0_9.index _ (1 : Fin 2) * 128 ≤ (i 1).val ∧ (i 1).val < win0_9.index _ (1 : Fin 2) * 128 + 128
      rw [e91]; omega

/-- THE SECOND RESULT ARRAY after the first grid: every node's residual with its bias, index by index. -/
theorem final10 (c : Dev nD) :
    (dat0 (F := Ideal) V c).arrAt 10 cfg0.N = resid (V c main_arg0) (V c main_arg8)
      (V c main_v0) (V c main_v1) (V c main_v2) (V c main_v3) (V c main_v5) :=
  (dat0 (F := Ideal) V c).arrAt_eq_of_cover 10 _ (fun t _ => flushed10_eq V c t) fun i => by
    have hN : grid0.N = 25 := N_0
    have hi0 : (i 0).val < 100000 := (i 0).isLt
    have hi1 : (i 1).val < 128 := (i 1).isLt
    refine ⟨⟨(i 0).val / 4000, by show (i 0).val / 4000 < grid0.N; omega⟩, flush0_10 _, ?_⟩
    rw [mem_blk10]
    obtain ⟨-, -, -, -, -, -, -, -, -, -, ⟨e100, e101⟩⟩ := index_facts ⟨(i 0).val / 4000, by show (i 0).val / 4000 < grid0.N; omega⟩
    intro a
    match a with
    | ⟨0, _⟩ =>
      show win0_10.index _ (0 : Fin 2) * 4000 ≤ (i 0).val ∧ (i 0).val < win0_10.index _ (0 : Fin 2) * 4000 + 4000
      rw [e100]; show (i 0).val / 4000 * 4000 ≤ (i 0).val ∧ (i 0).val < (i 0).val / 4000 * 4000 + 4000; omega
    | ⟨1, _⟩ =>
      show win0_10.index _ (1 : Fin 2) * 128 ≤ (i 1).val ∧ (i 1).val < win0_10.index _ (1 : Fin 2) * 128 + 128
      rw [e101]; omega

/-- The first result at node n and feature f: the node's message times the node's factor. -/
theorem scaled_msg_apply (c : Dev nD) (n : Fin 100000) (f : Fin 128) :
    ((dat0 (F := Ideal) V c).arrAt 9 cfg0.N : S100000x128.Idx → EReal) (ix2 n f)
      = GcnSpec.dense (GcnSpec.feat (fun j => V c main_arg0 (ix2 n j)) (fun j => V c main_v0 (ix2 (0 : Fin 1) j))
          (fun j => V c main_v1 (ix2 (0 : Fin 1) j)) (fun j => V c main_v2 (ix2 (0 : Fin 1) j))
          (fun j => V c main_v3 (ix2 (0 : Fin 1) j))) (V c main_arg2) f * V c main_v18 (ix2 n (0 : Fin 1)) := by
  rw [final9]
  rfl

/-- The second result at node n and feature f: the node's residual plus the residual bias. -/
theorem resid_apply (c : Dev nD) (n : Fin 100000) (f : Fin 128) :
    ((dat0 (F := Ideal) V c).arrAt 10 cfg0.N : S100000x128.Idx → EReal) (ix2 n f)
      = GcnSpec.dense (GcnSpec.feat (fun j => V c main_arg0 (ix2 n j)) (fun j => V c main_v0 (ix2 (0 : Fin 1) j))
          (fun j => V c main_v1 (ix2 (0 : Fin 1) j)) (fun j => V c main_v2 (ix2 (0 : Fin 1) j))
          (fun j => V c main_v3 (ix2 (0 : Fin 1) j))) (V c main_arg8) f + V c main_v5 (ix2 (0 : Fin 1) f) := by
  rw [final10]
  rfl

end GcnRegion0

end
-- ==== Proof.RefValue.lean ====
/-
  The reference layer's value at node i and output feature f, read off its operations one at a time.

  The layer's last operation is a select between s and a small multiple of s on the sign of s — the leaky rectifier of
  s — and s is a sum of four terms. Read from the inside:
  • a node's feature row is divided by the larger of its length and a small guard, the mean is subtracted, and the
    result is multiplied by the inverse square root of (variance + ε), by γ, and β is added: this is `GcnSpec.feat` of
    the row, since a sum that starts from zero is the sum, and every per-feature vector spread over the rows reads, at
    (n, k), the vector at k;
  • a product of the feature matrix with a 128 × 128 matrix reads, at (n, f), the sum over k of feature k of row n times
    the matrix at (k, f): the message of node n (`GcnEdges.msgOf`), and with the other matrix its residual;
  • a gather of single entries from a vector by a column of indices reads, at list entry e, the vector at the row the
    index names — read signed, clamped into the vector (`gather_vec_apply`); so the two gathered degree factors of
    entry e are the factors of its source row and of its destination row, and the gathered message row of entry e is
    the message of its source row;
  • the row scatter-add onto zeros reads, at (i, f), the sum over the list entries whose destination — read signed —
    is i of the entry's message times the product of its two degree factors: `GcnSpec.aggPerEdge`;
  • bias, residual and residual bias are added in turn.
  That is `GcnEdges.refOut`, term for term.
-/
import proofs.«119485_j35983236006067_2_alg».proof.Proof.Edges
import proofs.«119485_j35983236006067_2_alg».proof.Proof.LibSparseRows

noncomputable section

namespace GcnRef

open Idealize.ShloMosaic Idealize.ShloMosaic.ValueIdx Cert.ReferenceIdeal Cert.ReferenceIdeal.Gen Cert.ReferenceIdeal.Read GcnEdges

/-- Feature k of node n's row after scaling to unit length and batch normalisation. -/
theorem feat_apply (x0 : NodeArr) (x4 x5 x6 x7 : FeatVec) (n : Fin 100000) (k : Fin 128) :
    val_main_v22 (F := Ideal) x0 x4 x5 x6 x7 (ix2 n k)
      = GcnSpec.feat (fun j => x0 (ix2 n j)) (fun j => x6 (ix1 j)) (fun j => x7 (ix1 j)) (fun j => x4 (ix1 j))
          (fun j => x5 (ix1 j)) k := by
  rw [val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_cst_1_apply, val_main_v10_apply, val_main_v9_apply,
    val_main_v8_apply, val_main_v7_apply, val_main_v6_apply, val_main_v5_apply, val_main_v4_apply,
    val_main_cst_0_apply, val_main_v3_apply, val_main_v2_apply, val_main_v1_apply, val_main_cst_apply]
  have h6 : idx_main_v8 (idx_main_v9 (ix2 n k)) = ix1 k := funext fun a => by match a with | ⟨0, _⟩ => rfl
  have h7 : idx_main_v14 (idx_main_v15 (ix2 n k)) = ix1 k := funext fun a => by match a with | ⟨0, _⟩ => rfl
  have h4 : idx_main_v17 (idx_main_v18 (ix2 n k)) = ix1 k := funext fun a => by match a with | ⟨0, _⟩ => rfl
  have h5 : idx_main_v20 (idx_main_v21 (ix2 n k)) = ix1 k := funext fun a => by match a with | ⟨0, _⟩ => rfl
  have h0 : ∀ j : Fin 128, idx_main_v1 (idx_main_v2 (idx_main_v6 (ix2 n k))) j = ix2 n j := fun j =>
    funext fun a => by match a with | ⟨0, _⟩ => rfl | ⟨1, _⟩ => rfl
  simp only [Ideal.addf_def, Ideal.subf_def, Ideal.mulf_def, Ideal.maximumf_def, Ideal.hostDivf_def,
    Ideal.hostUnary_sqrt_def, Ideal.hostUnary_rsqrt_def, Ideal.ofBits_def, val_main_v0_apply, h0, h4, h5, h6, h7,
    Ideal.ofBits_zero_f32, zero_add]
  rfl

/-- Column f of node n's normalised row times the layer's weights: the message of node n. -/
theorem msg_apply (x0 : NodeArr) (x2 : WeightArr) (x4 x5 x6 x7 : FeatVec) (n : Fin 100000) (f : Fin 128) :
    val_main_v50 (F := Ideal) x0 x2 x4 x5 x6 x7 (ix2 n f) = msgOf x0 x2 x4 x5 x6 x7 f n := by
  rw [val_main_v50_apply]
  unfold msgOf GcnSpec.dense
  refine Finset.sum_congr rfl fun k _ => ?_
  have hl : lidx_main_v50 (ix2 n f) k = ix2 n k := funext fun a => by match a with | ⟨0, _⟩ => rfl | ⟨1, _⟩ => rfl
  have hr : ridx_main_v50 (ix2 n f) k = ix2 k f := funext fun a => by match a with | ⟨0, _⟩ => rfl | ⟨1, _⟩ => rfl
  rw [hl, hr, feat_apply]

/-- Column f of node n's normalised row times the residual weights: the residual of node n. -/
theorem res_apply (x0 : NodeArr) (x4 x5 x6 x7 : FeatVec) (x8 : WeightArr) (n : Fin 100000) (f : Fin 128) :
    val_main_v67 (F := Ideal) x0 x4 x5 x6 x7 x8 (ix2 n f) = msgOf x0 x8 x4 x5 x6 x7 f n := by
  rw [val_main_v67_apply]
  unfold msgOf GcnSpec.dense
  refine Finset.sum_congr rfl fun k _ => ?_
  have hl : lidx_main_v67 (ix2 n f) k = ix2 n k := funext fun a => by match a with | ⟨0, _⟩ => rfl | ⟨1, _⟩ => rfl
  have hr : ridx_main_v67 (ix2 n f) k = ix2 k f := funext fun a => by match a with | ⟨0, _⟩ => rfl | ⟨1, _⟩ => rfl
  rw [hl, hr, feat_apply]

section VecGather

variable {α : Type} {N E w : Nat}

/-- The dimension numbers of a gather of single entries from a vector of N entries by E×1 start indices. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF (⟨1, ![N]⟩ : Shape) ⟨2, ![E, 1]⟩ ⟨1, ![E]⟩ [] [0] [] [0] [] 1 ![1])

/-- THE ENTRY GATHER READ AT e: the operand at the entry idx[e] names, read signed and clamped into the operand. -/
theorem gather_vec_apply (hN : 0 < N) (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    have h0 : (0 : Fin 1) ∉ (vecDims N E wf).sKept :=
      (show (0 : Fin 1) ∉ (List.finRange 1).filter (· ∉ [(0 : Fin 1)] ++ []) by decide)
    rw [GatherDims.batchCoord_eq_zero _ _ _ List.not_mem_nil, GatherDims.offCoord_eq_zero _ _ _ h0]
    simp only [Nat.add_zero]
    unfold GatherDims.start
    rw [dif_pos (show (0 : Fin 1) ∈ [(0 : Fin 1)] from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end VecGather

/-- The column of source indices the row gather reads is the one the degree-factor gather reads. -/
theorem srcCol_eq (x1 : EdgeArr) : val_main_v56 (F := Ideal) x1 = val_main_v40 (F := Ideal) x1 := rfl

/-- The column of destination indices the row scatter reads is the one the degree count reads. -/
theorem dstCol_eq (x1 : EdgeArr) : val_main_v62 (F := Ideal) x1 = val_main_v32 (F := Ideal) x1 := rfl

/-- The gathered message of list entry e: the message of its source row. -/
theorem gathered_msg_apply (x0 : NodeArr) (x1 : EdgeArr) (x2 : WeightArr) (x4 x5 x6 x7 : FeatVec)
    (e : Fin 1700000) (f : Fin 128) :
    val_main_v57 (F := Ideal) x0 x1 x2 x4 x5 x6 x7 (ix2 e f) = msgOf x0 x2 x4 x5 x6 x7 f (srcRow x1 e) :=
  (GatherRows.gather_rows_apply (N := 100000) (E := 1700000) (F := 128)
    gather_S100000x128_S1700000x1_S1700000x128_1_0_n_n_0_1_1128_wf (by omega)
    (val_main_v50 (F := Ideal) x0 x2 x4 x5 x6 x7) (val_main_v56 (F := Ideal) x1) e f).trans
    (msg_apply x0 x2 x4 x5 x6 x7 (srcRow x1 e) f)

/-- The degree factor gathered at the source end of list entry e. -/
theorem dinv_src_apply (x1 : EdgeArr) (e : Fin 1700000) :
    val_main_v41 (F := Ideal) x1 (ix1 e) = dinvAt x1 (srcRow x1 e) :=
  gather_vec_apply (N := 100000) (E := 1700000) gather_S100000_S1700000x1_S1700000_n_0_n_n_0_1_1_wf (by omega)
    (val_main_v34 (F := Ideal) x1) (val_main_v40 (F := Ideal) x1) e

/-- The degree factor gathered at the destination end of list entry e. -/
theorem dinv_dst_apply (x1 : EdgeArr) (e : Fin 1700000) :
    val_main_v48 (F := Ideal) x1 (ix1 e) = dinvAt x1 (dstRow x1 e) :=
  gather_vec_apply (N := 100000) (E := 1700000) gather_S100000_S1700000x1_S1700000_n_0_n_n_0_1_1_wf (by omega)
    (val_main_v34 (F := Ideal) x1) (val_main_v47 (F := Ideal) x1) e

/-- The scaled message of list entry e: its source row's message times the degree factors of its two ends. -/
theorem edge_apply (x0 : NodeArr) (x1 : EdgeArr) (x2 : WeightArr) (x4 x5 x6 x7 : FeatVec)
    (e : Fin 1700000) (f : Fin 128) :
    val_main_v60 (F := Ideal) x0 x1 x2 x4 x5 x6 x7 (ix2 e f)
      = msgOf x0 x2 x4 x5 x6 x7 f (srcRow x1 e) * (dinvAt x1 (srcRow x1 e) * dinvAt x1 (dstRow x1 e)) := by
  have h : idx_main_v58 (idx_main_v59 (ix2 e f)) = ix1 e := funext fun a => by match a with | ⟨0, _⟩ => rfl
  rw [val_main_v60_apply, val_main_v59_apply, val_main_v58_apply, gathered_msg_apply, h, val_main_v49_apply,
    dinv_src_apply, dinv_dst_apply]
  rfl

/-- The sum of the scaled messages over the list entries whose destination is node i. -/
theorem agg_apply (x0 : NodeArr) (x1 : EdgeArr) (x2 : WeightArr) (x4 x5 x6 x7 : FeatVec)
    (i : Fin 100000) (f : Fin 128) :
    val_main_v63 (F := Ideal) x0 x1 x2 x4 x5 x6 x7 (ix2 i f)
      = GcnSpec.aggPerEdge (dstZ x1) (srcRow x1) (dstRow x1) (msgOf x0 x2 x4 x5 x6 x7 f) (dinvAt x1) i := by
  unfold val_main_v63
  refine (ScatterRows.scatterAdd_rows_apply (N := 100000) (E := 1700000) (F := 128)
    scatter_S100000x128_S1700000x1_S1700000x128_1_0_0_1_wf (val_main_v61 (F := Ideal))
    (val_main_v62 (F := Ideal) x1) (val_main_v60 (F := Ideal) x0 x1 x2 x4 x5 x6 x7) i f).trans ?_
  rw [val_main_v61_apply, val_main_cst_9_apply, Ideal.ofBits_def, Ideal.ofBits_zero_f32, zero_add]
  unfold GcnSpec.aggPerEdge
  refine Finset.sum_congr rfl fun e _ => ?_
  rw [edge_apply, dstCol_eq]
  rfl

/-- THE REFERENCE'S VALUE at node i and output feature f. -/
theorem ref_apply (x0 : NodeArr) (x1 : EdgeArr) (x2 : WeightArr) (x3 x4 x5 x6 x7 : FeatVec) (x8 : WeightArr)
    (x9 : FeatVec) (i : Fin 100000) (f : Fin 128) :
    val_main_v76 (F := Ideal) x0 x1 x2 x3 x4 x5 x6 x7 x8 x9 (ix2 i f) = refOut x0 x1 x2 x3 x4 x5 x6 x7 x8 x9 i f := by
  have h3 : idx_main_v64 (idx_main_v65 (ix2 i f)) = ix1 f := funext fun a => by match a with | ⟨0, _⟩ => rfl
  have h9 : idx_main_v69 (idx_main_v70 (ix2 i f)) = ix1 f := funext fun a => by match a with | ⟨0, _⟩ => rfl
  have h71 : val_main_v71 (F := Ideal) x0 x1 x2 x3 x4 x5 x6 x7 x8 x9 (ix2 i f)
      = ((GcnSpec.aggPerEdge (dstZ x1) (srcRow x1) (dstRow x1) (msgOf x0 x2 x4 x5 x6 x7 f) (dinvAt x1) i
          + x3 (ix1 f)) + msgOf x0 x8 x4 x5 x6 x7 f i) + x9 (ix1 f) := by
    rw [val_main_v71_apply, val_main_v70_apply, val_main_v69_apply, h9, val_main_v68_apply, res_apply,
      val_main_v66_apply, val_main_v65_apply, val_main_v64_apply, h3, agg_apply]
    rfl
  rw [val_main_v76_apply, val_main_v73_apply, val_main_v75_apply, val_main_v74_apply, val_main_cst_11_apply,
    val_main_v72_apply, val_main_cst_10_apply, h71]
  rfl

end GcnRef

end
-- ==== Proof.LibCountScatter.lean ====
/-
  A vector scatter-add on the host, read at an index: counting the edges into each node.

  Scatter-adding a vector of E values into a vector of N entries by E row numbers adds, to entry n, the values whose row
  number — read signed, not clamped — is n; a value whose row number is no entry of the operand adds nothing. With every
  value 1 and the operand 0 this counts the edges into each node.

  The same number is a column of a ROW scatter-add: if an E×F' matrix of updates carries the values in one of its columns,
  scatter-adding its rows by the same row numbers leaves, in that column of row n, the same sum. So a column of ones laid
  beside the messages and scatter-added once gives the per-node sums and the per-node count together.
  Every statement is at the ideal values (floats are extended reals); none needs a finiteness hypothesis.
-/
import Idealize.ShloMosaic.Lib.ValueIdx
import Idealize.ShloMosaic.PureOps.Ideal.Laws
import proofs.«119485_j35983236006067_2_alg».proof.Proof.LibSparseRows

noncomputable section

namespace ScatterVec

open Idealize.ShloMosaic Idealize.ShloMosaic.ValueIdx

variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter into a vector of N entries from E×1 indices and E updates. -/
abbrev vecDims (N E : Nat) (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF (⟨1, ![N]⟩ : Shape) ⟨2, ![E, 1]⟩ ⟨1, ![E]⟩ [] [0] [0] 1)

/-- An update is a single value: it has no window coordinate. -/
theorem window_entry (j : (⟨1, ![E]⟩ : Shape).Idx) : (vecDims N E wf).window j 0 = 0 := by
  have h : (0 : Fin 1) ∉ (vecDims N E wf).sKept :=
    (show (0 : Fin 1) ∉ (List.finRange 1).filter (· ∉ [(0 : Fin 1)]) by decide)
  unfold ScatterDims.window
  rw [dif_neg h]

/-- It lands on the entry its index names, read signed. -/
theorem start_entry (j : (⟨1, ![E]⟩ : Shape).Idx) (idx : IVec ⟨2, ![E, 1]⟩ w) :
    (vecDims N E wf).start j idx 0 = (idx (ix2 (j 0 : Fin E) (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- Update `j` lands on the operand's entry n exactly when its index, read signed, is n. -/
theorem resultIdx_eq_some_iff (j : (⟨1, ![E]⟩ : Shape).Idx) (idx : IVec ⟨2, ![E, 1]⟩ w) (n : Fin N) :
    (vecDims N E wf).resultIdx? j idx = some (ix1 n) ↔ (idx (ix2 (j 0 : Fin E) (0 : Fin 1))).toInt = (n.val : ℤ) := by
  unfold ScatterDims.resultIdx?
  constructor
  · intro h
    split at h
    · rename_i hr
      have he := Option.some.inj h
      have e0 := congrArg (fun g => (g 0).val) he
      simp only [start_entry, window_entry] at e0
      have h0 := hr 0
      simp only [start_entry, window_entry] at h0
      have : ((idx (ix2 (j 0 : Fin E) (0 : Fin 1))).toInt + 0).toNat = n.val := e0
      omega
    · exact absurd h (by simp)
  · intro h0
    have hn := n.isLt
    have s0 : (vecDims N E wf).start j idx 0 + ((vecDims N E wf).window j 0 : ℤ) = (n.val : ℤ) := by
      rw [start_entry, window_entry, h0]; omega
    have hr : ∀ a, 0 ≤ (vecDims N E wf).start j idx a + (vecDims N E wf).window j a
        ∧ (vecDims N E wf).start j idx a + (vecDims N E wf).window j a < (⟨1, ![N]⟩ : Shape).size a := fun a =>
      match a with
      | ⟨0, _⟩ => (show 0 ≤ (vecDims N E wf).start j idx 0 + ((vecDims N E wf).window j 0 : ℤ)
          ∧ (vecDims N E wf).start j idx 0 + ((vecDims N E wf).window j 0 : ℤ) < ((N : ℕ) : ℤ) by rw [s0]; omega)
    rw [dif_pos hr]
    congr 1
    funext a
    refine Fin.ext ?_
    match a with
    | ⟨0, _⟩ =>
      show ((vecDims N E wf).start j idx 0 + ((vecDims N E wf).window j 0 : ℤ)).toNat = n.val
      rw [s0]; omega

/-- THE VECTOR SCATTER-ADD READ AT n: the operand's entry plus the sum of the updates whose index is n. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  by_cases hc : (idx (ix2 e (0 : Fin 1))).toInt = (n.val : ℤ)
  · rw [if_pos hc, if_pos ((resultIdx_eq_some_iff wf (ix1 e) idx n).mpr hc)]
  · rw [if_neg hc, if_neg fun h => hc ((resultIdx_eq_some_iff wf (ix1 e) idx n).mp h)]

/-- The same of the host operation at the ideal instance, as a printed program spells it. -/
theorem scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecDims N E wf) x idx upd (ix1 n)
      = x (ix1 n) + ∑ e : Fin E, if (idx (ix2 e (0 : Fin 1))).toInt = (n.val : ℤ) then upd (ix1 e) else 0 :=
  hostScatterAdd_vec_apply wf x idx upd n

/-- A COLUMN OF A ROW SCATTER IS A VECTOR SCATTER: a row scatter-add of E×F' updates by the same indices, read in a
    column where its operand agrees with the vector operand and its updates carry the vector's updates, is the vector
    scatter-add. -/
theorem hostScatterAdd_vec_eq_col {F' : Nat}
    (wf' : ScatterDims.WF (⟨2, ![N, F']⟩ : Shape) ⟨2, ![E, 1]⟩ ⟨2, ![E, F']⟩ [1] [0] [0] 1)
    (x : (⟨1, ![N]⟩ : Shape).Idx → EReal) (x' : (⟨2, ![N, F']⟩ : Shape).Idx → EReal) (idx : IVec ⟨2, ![E, 1]⟩ w)
    (upd : (⟨1, ![E]⟩ : Shape).Idx → EReal) (upd' : (⟨2, ![E, F']⟩ : Shape).Idx → EReal) (f' : Fin F')
    (hx : ∀ n : Fin N, x (ix1 n) = x' (ix2 n f')) (hu : ∀ e : Fin E, upd (ix1 e) = upd' (ix2 e f')) (n : Fin N) :
    Ideal.hostScatterAdd (vecDims N E wf) x idx upd (ix1 n)
      = Ideal.hostScatterAdd (ScatterRows.rowDims N E F' wf') x' idx upd' (ix2 n f') := by
  rw [hostScatterAdd_vec_apply wf, ScatterRows.hostScatterAdd_rows_apply wf', hx n]
  congr 1
  exact Finset.sum_congr rfl fun e _ => by rw [hu e]

end ScatterVec

end
-- ==== Proof.EdgeFacts.lean ====
/-
  Facts about the edge lists.

  * Entry 1,600,000 + i of the destination list is node i's self-loop: every node is the destination of some entry.
  * An entry whose destination, read signed, is node i (so it is not negative and needs no wrapping) names row i when
    wrapped and clamped.
  * A node's degree factor is the inverse square root of the number of entries whose destination it is; by the
    self-loop that number is a real at least one, so the factor is a nonnegative real.
-/
import proofs.«119485_j35983236006067_2_alg».proof.Proof.Edges
import proofs.«119485_j35983236006067_2_alg».proof.Proof.LibCountScatter
import Idealize.ShloMosaic.Lib.Pipeline.Value
import Idealize.ShloMosaic.Lib.IdealHost

noncomputable section

namespace GcnEdges

open Idealize.ShloMosaic Idealize.ShloMosaic.ValueIdx Cert.ReferenceIdeal Cert.ReferenceIdeal.Gen Cert.ReferenceIdeal.Read

/-- A column made from a list reads, at row e, the list at e. -/
theorem column_index (e : Fin 1700000) : idx_main_v32 (ix2 e (0 : Fin 1)) = ix1 e :=
  funext fun a => match a with | ⟨0, _⟩ => rfl

/-- The destination of entry e is the joined destination list at e, read signed. -/
theorem dstZ_eq (x1 : EdgeArr) (e : Fin 1700000) : dstZ x1 e = (val_main_v29 (F := Ideal) x1 (ix1 e)).toInt := by
  unfold dstZ
  rw [val_main_v32_apply, column_index]

/-- A small natural number, as a 32-bit word read signed, is itself. -/
theorem toInt_ofNat_small (n : Nat) (h : n < 100000) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- THE SELF-LOOP: entry 1,600,000 + i of the destination list is i. -/
theorem self_loop (x1 : EdgeArr) (i : Fin 100000) : ∃ e : Fin 1700000, dstZ x1 e = (i.val : ℤ) := by
  have hi := i.isLt
  refine ⟨⟨1600000 + i.val, by omega⟩, ?_⟩
  rw [dstZ_eq]
  unfold val_main_v29
  rw [concatenate_pair_apply_right (0 : Fin 1) _ _ concatenates_S1600000_S100000_S1700000_d0
    (ix1 (⟨1600000 + i.val, by omega⟩ : Fin 1700000)) rfl rfl (ix1 i)
    (fun b => match b with | ⟨0, _⟩ => fun hb => (hb rfl).elim)
    (by show i.val + 1600000 = 1600000 + i.val; omega)]
  rw [val_main_v23_apply]
  exact toInt_ofNat_small i.val hi

/-- A word that is not negative is left alone by the wrap of negative indices. -/
theorem wrap_of_nonneg {α : Type} (w : BitVec 32) (h : 0 ≤ w.toInt) (a b : α) :
    Scalar.select (IntOp.cmpi .slt w 0#32) a b = b := by
  have hs : w.slt 0#32 = false := by
    unfold BitVec.slt
    rw [BitVec.toInt_zero]
    exact decide_eq_false (by omega)
  have hc : IntOp.cmpi .slt w 0#32 = 0#1 := by
    show BitVec.ofBool (w.slt 0#32) = 0#1
    rw [hs]; rfl
  rw [hc, select_zero]

/-- An entry whose destination is node i names row i at its destination end. -/
theorem dstRow_of_dstZ (x1 : EdgeArr) (e : Fin 1700000) (i : Fin 100000) (h : dstZ x1 e = (i.val : ℤ)) :
    dstRow x1 e = i := by
  rw [dstZ_eq] at h
  have hi := i.isLt
  unfold dstRow rowOf
  apply Fin.ext
  show min (val_main_v47 (F := Ideal) x1 (ix2 e (0 : Fin 1))).toInt.toNat (100000 - 1) = i.val
  have hcol : idx_main_v47 (ix2 e (0 : Fin 1)) = ix1 e := funext fun a => match a with | ⟨0, _⟩ => rfl
  rw [val_main_v47_apply, hcol, val_main_v46_apply, val_main_v43_apply, val_main_v42_apply, val_main_c_5_apply,
    wrap_of_nonneg _ (by rw [h]; omega), h]
  omega

/-- A node's degree factor is the inverse square root of its in-degree. -/
theorem dinvAt_eq (x1 : EdgeArr) (n : Fin 100000) :
    dinvAt x1 n = Ideal.rsqrt (GcnSpec.degree (dstZ x1) n.val) := by
  unfold dinvAt
  rw [val_main_v34_apply, Ideal.hostUnary_rsqrt_def]
  refine congrArg Ideal.rsqrt ?_
  unfold val_main_v33
  refine (ScatterVec.scatterAdd_vec_apply scatter_S100000_S1700000x1_S1700000_n_0_0_1.wf
    (val_main_v31 (F := Ideal)) (val_main_v32 (F := Ideal) x1) (val_main_v30 (F := Ideal)) n).trans ?_
  rw [val_main_v31_apply, val_main_cst_3_apply, Ideal.ofBits_def, Ideal.ofBits_zero_f32, zero_add]
  unfold GcnSpec.degree
  refine Finset.sum_congr rfl fun e _ => ?_
  rw [val_main_v30_apply, val_main_cst_2_apply]
  rfl

/-- Every node's degree factor is a nonnegative real. -/
theorem dinvAt_real (x1 : EdgeArr) (n : Fin 100000) : ∃ r : ℝ, 0 ≤ r ∧ dinvAt x1 n = (r : EReal) := by
  rw [dinvAt_eq]
  exact GcnSpec.dinv_real (dstZ x1) n.val (self_loop x1 n)

/-- THE TWO ARRANGEMENTS AGREE on every node and feature. -/
theorem kerOut_eq_refOut (x0 : NodeArr) (x1 : EdgeArr) (x2 : WeightArr) (x3 x4 x5 x6 x7 : FeatVec) (x8 : WeightArr)
    (x9 : FeatVec) (i : Fin 100000) (f : Fin 128) :
    kerOut x0 x1 x2 x3 x4 x5 x6 x7 x8 x9 i f = refOut x0 x1 x2 x3 x4 x5 x6 x7 x8 x9 i f := by
  unfold kerOut refOut
  rw [GcnSpec.aggScaledOnce_eq_aggPerEdge (dstZ x1) (srcRow x1) (dstRow x1) _ (dinvAt x1) i (dinvAt_real x1 i)
    (fun e h => dstRow_of_dstZ x1 e i h), GcnSpec.add_arrangements]

end GcnEdges

end
-- ==== Proof.lean ====
/-
  The certificate: a Pallas implementation of one graph-convolution layer with a residual branch against its plain
  reference, on the extended reals.

  Both programs normalise each node's feature row to unit length, batch-normalise it with running statistics, and map it
  by two weight matrices to a message and a residual. Node i then receives, over the edges into it (the graph's edges and
  one self-loop per node), the messages of the source nodes weighted by d(source) · d(i), d the inverse square root of
  the in-degree; bias, residual and residual bias are added and a leaky rectifier is applied. The kernel scales each
  node's message by d(source) once, inside its first grid of blocks, sums the scaled messages over the edges on the host,
  and multiplies the sum by d(i) in its second grid, where it also adds the residual to which both biases were added
  beforehand; the reference scales every edge's message by d(source) · d(i), sums, and adds bias, residual and residual
  bias in turn. The two agree on the extended reals because d(i) is a nonnegative real — every node has its self-loop,
  so its in-degree is a real at least one — and a nonnegative real factor distributes over any finite sum of extended
  reals; the rest is commutativity and associativity of addition. No finiteness of the inputs is needed for this.

  The three frames are the programs' runs with the result dropped. The idealization rewrote nothing, so the kernel's
  idealized program is its own text read on the extended reals.
-/
import proofs.«119485_j35983236006067_2_alg».proof.Defs
import proofs.«119485_j35983236006067_2_alg».proof.Proof.Gen.Kernel
import proofs.«119485_j35983236006067_2_alg».proof.Proof.Gen.Kernel.Skeleton
import proofs.«119485_j35983236006067_2_alg».proof.Proof.Gen.Kernel.Launch
import proofs.«119485_j35983236006067_2_alg».proof.Proof.Gen.Kernel.Points
import proofs.«119485_j35983236006067_2_alg».proof.Proof.Gen.Kernel.Frame
import proofs.«119485_j35983236006067_2_alg».proof.Proof.Gen.KernelIdeal
import proofs.«119485_j35983236006067_2_alg».proof.Proof.Gen.KernelIdeal.Skeleton
import proofs.«119485_j35983236006067_2_alg».proof.Proof.Gen.KernelIdeal.Launch
import proofs.«119485_j35983236006067_2_alg».proof.Proof.Gen.KernelIdeal.Points
import proofs.«119485_j35983236006067_2_alg».proof.Proof.Gen.KernelIdeal.Frame
import proofs.«119485_j35983236006067_2_alg».proof.Proof.Gen.ReferenceIdeal
import proofs.«119485_j35983236006067_2_alg».proof.Proof.Gen.Pre_finite_inputs
import proofs.«119485_j35983236006067_2_alg».proof.Proof.Gen.ReferenceIdeal.Run
import proofs.«119485_j35983236006067_2_alg».proof.Proof.Gen.ReferenceIdeal.Read
import proofs.«119485_j35983236006067_2_alg».proof.Proof.KernelRun
import proofs.«119485_j35983236006067_2_alg».proof.Proof.KernelValue
import proofs.«119485_j35983236006067_2_alg».proof.Proof.Region0
import proofs.«119485_j35983236006067_2_alg».proof.Proof.RefValue
import proofs.«119485_j35983236006067_2_alg».proof.Proof.EdgeFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel as printed runs to the end, nothing faulting, its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same result array: at node i and feature f the kernel's is the layer's value with
    messages scaled at the source and the sum scaled at i, the reference's the value with every edge scaled by both
    factors, and the two arrangements agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 (F := Ideal) m ρ c (Proc.devRef .tc Cert.KernelIdeal.main_v31),
    GcnKernelRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq]
  obtain ⟨a0, a1, a2, a3, a4, a5, a6, a7, a8, a9⟩ := hagree c
  rw [a0, a1, a2, a3, a4, a5, a6, a7, a8, a9]
  funext j
  obtain ⟨i, f, rfl⟩ : ∃ (i : Fin 100000) (f : Fin 128), j = ix2 i f := ⟨j 0, j 1, eq_ix2 j⟩
  refine (GcnRef.ref_apply _ _ _ _ _ _ _ _ _ _ i f).trans ?_
  refine (GcnEdges.kerOut_eq_refOut _ _ _ _ _ _ _ _ _ _ i f).symm.trans ?_
  exact (GcnKernelValue.result_apply m ρ c
    (GcnKernelValue.scaled_messages m ρ c (fun n g => GcnRegion0.scaled_msg_apply (Cert.KernelIdeal.Gen.V1 m ρ) c n g))
    (GcnKernelValue.residual m ρ c (fun n g => GcnRegion0.resid_apply (Cert.KernelIdeal.Gen.V1 m ρ) c n g)) i f).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
